-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  IdealRules.truncf_extf.Statement Cert.KernelIdeal.S512x512 .f32 .bf16
  ∧ IdealRules.truncf_extf.Statement Cert.KernelIdeal.S2048x512 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x512 : Shape := ⟨3, ![8, 2048, 512]⟩
abbrev S_ : Shape := ⟨0, ![]⟩

class Facts : Prop where
  bcast_S_S8x2048x512 : S_.BroadcastsInDim S8x2048x512 (![] : Fin 0 → Fin S8x2048x512.rank)
  reducesTo_S8x2048x512_S_d0_1_2 : S8x2048x512.ReducesTo [0, 1, 2] S_
  h_S_ : 0 < S_.numel

variable [Facts]

def fn {F : FTy → Type} [FloatOps F] (main_arg0 : FVec F S8x2048x512 .f32) : IVec S_ 1 :=
  let main_v0 : FVec F S8x2048x512 .f32 := Host.absf main_arg0
  let main_cst : FVec F S_ .f32 := constant S_ .f32 0x7F800000#32
  let main_v1 : FVec F S8x2048x512 .f32 := broadcastInDim S8x2048x512 ![] bcast_S_S8x2048x512 main_cst
  let main_v2 : IVec S8x2048x512 1 := cmpf .olt main_v0 main_v1
  let main_c : IVec S_ 1 := constantI S_ 1 1#1
  let main_v3 : IVec S_ 1 := (fun x v => Host.reduce IntOp.andi x v reducesTo_S8x2048x512_S_d0_1_2 h_S_) main_v2 main_c
  main_v3
-- ==== Kernel.lean ====
abbrev S8x2048x512 : Shape := ⟨3, ![8, 2048, 512]⟩
abbrev S8x2048x1 : Shape := ⟨3, ![8, 2048, 1]⟩
abbrev S1x2048x512 : Shape := ⟨3, ![1, 2048, 512]⟩
abbrev S1x2048x1 : Shape := ⟨3, ![1, 2048, 1]⟩
abbrev S2048x512 : Shape := ⟨2, ![2048, 512]⟩
abbrev S2048 : Shape := ⟨1, ![2048]⟩
abbrev S2048x1 : Shape := ⟨2, ![2048, 1]⟩
abbrev S8x1x2048 : Shape := ⟨3, ![8, 1, 2048]⟩
abbrev S8x2048x2048 : Shape := ⟨3, ![8, 2048, 2048]⟩
abbrev S1x512x512 : Shape := ⟨3, ![1, 512, 512]⟩
abbrev S1x512x1 : Shape := ⟨3, ![1, 512, 1]⟩
abbrev S1x1x2048 : Shape := ⟨3, ![1, 1, 2048]⟩
abbrev S1x512x2048 : Shape := ⟨3, ![1, 512, 2048]⟩
abbrev S512x512 : Shape := ⟨2, ![512, 512]⟩
abbrev S512x2048 : Shape := ⟨2, ![512, 2048]⟩
abbrev S512x1 : Shape := ⟨2, ![512, 1]⟩
abbrev S1x2048 : Shape := ⟨2, ![1, 2048]⟩

abbrev nBuf : Space → Nat
  | .hbm => 4
  | .vmem => 14
  | .smem => 0
  | _ => 0

abbrev bufTy : (tb : Table) → Fin (tcTables nBuf tb) → BufTy
  | .hbm, ⟨0, _⟩ => ⟨S8x2048x512, .f32⟩
  | .hbm, ⟨1, _⟩ => ⟨S8x2048x1, .f32⟩
  | .hbm, ⟨2, _⟩ => ⟨S8x1x2048, .f32⟩
  | .hbm, ⟨3, _⟩ => ⟨S8x2048x2048, .f32⟩
  | .local _ .vmem, ⟨0, _⟩ => ⟨S1x2048x512, .f32⟩
  | .local _ .vmem, ⟨1, _⟩ => ⟨S1x2048x512, .f32⟩
  | .local _ .vmem, ⟨2, _⟩ => ⟨S1x2048x1, .f32⟩
  | .local _ .vmem, ⟨3, _⟩ => ⟨S1x2048x1, .f32⟩
  | .local _ .vmem, ⟨4, _⟩ => ⟨S1x512x512, .f32⟩
  | .local _ .vmem, ⟨5, _⟩ => ⟨S1x512x512, .f32⟩
  | .local _ .vmem, ⟨6, _⟩ => ⟨S1x2048x512, .f32⟩
  | .local _ .vmem, ⟨7, _⟩ => ⟨S1x2048x512, .f32⟩
  | .local _ .vmem, ⟨8, _⟩ => ⟨S1x512x1, .f32⟩
  | .local _ .vmem, ⟨9, _⟩ => ⟨S1x512x1, .f32⟩
  | .local _ .vmem, ⟨10, _⟩ => ⟨S1x1x2048, .f32⟩
  | .local _ .vmem, ⟨11, _⟩ => ⟨S1x1x2048, .f32⟩
  | .local _ .vmem, ⟨12, _⟩ => ⟨S1x512x2048, .f32⟩
  | .local _ .vmem, ⟨13, _⟩ => ⟨S1x512x2048, .f32⟩
  | _, _ => ⟨S8x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc1_stg4_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem3_1 : DmaSem sig := 11
abbrev cc1_sem4_0 : DmaSem sig := 12
abbrev cc1_sem4_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨2, ![8, 4], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x512x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x2048x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x512x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x1x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S1x512x2048 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

class Facts₀ : Prop where
  inb_S1x2048x512_S1x2048x512_0_0_0 : ∀ a, (![0, 0, 0] : Fin 3 → Nat) a + S1x2048x512.size a ≤ S1x2048x512.size a
  h_S1x2048x512 : 0 < S1x2048x512.numel
  shapeCasts_S1x2048x512_S2048x512 : S1x2048x512.ShapeCasts S2048x512
  reduces_S2048x512_S2048 : S2048x512.Reduces [1] S2048
  shapeCasts_S2048_S2048x1 : S2048.ShapeCasts S2048x1
  inb_S1x2048x1_S1x2048x1_0_0_0 : ∀ a, (![0, 0, 0] : Fin 3 → Nat) a + S1x2048x1.size a ≤ S1x2048x1.size a
  h_S1x2048x1 : 0 < S1x2048x1.numel
  shapeCasts_S1x2048x1_S2048x1 : S1x2048x1.ShapeCasts S2048x1
  shapeCasts_S2048x1_S1x2048x1 : S2048x1.ShapeCasts S1x2048x1
  transposes_S8x2048x1_S8x1x2048_0_2_1 : S8x2048x1.Transposes [0, 2, 1] S8x1x2048
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  bitsLt_bf16_f32 : FTy.bits .bf16 < FTy.bits .f32
  inb_S1x512x1_S1x512x1_0_0_0 : ∀ a, (![0, 0, 0] : Fin 3 → Nat) a + S1x512x1.size a ≤ S1x512x1.size a
  h_S1x512x1 : 0 < S1x512x1.numel
  shapeCasts_S1x512x1_S512x1 : S1x512x1.ShapeCasts S512x1
  inb_S1x1x2048_S1x1x2048_0_0_0 : ∀ a, (![0, 0, 0] : Fin 3 → Nat) a + S1x1x2048.size a ≤ S1x1x2048.size a
  h_S1x1x2048 : 0 < S1x1x2048.numel
  shapeCasts_S1x1x2048_S1x2048 : S1x1x2048.ShapeCasts S1x2048
  broadcasts_S512x1_S512x2048 : S512x1.Broadcasts S512x2048
  broadcasts_S1x2048_S512x2048 : S1x2048.Broadcasts S512x2048
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  shapeCasts_S512x2048_S1x512x2048 : S512x2048.ShapeCasts S1x512x2048
  dot_S512x512_S2048x512_S512x2048_1_1_0_0_n_n_wf : DotDims.WF S512x512 S2048x512 S512x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x512.size a ≤ S8x2048x512.size a
  hwx0_0 : ∀ i : grid0.Coords, EltTy.bits .f32 = 32 ∨ (Rect.block (s := S8x2048x512) S1x2048x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x1.size a ≤ S8x2048x1.size a
  hwx0_1 : ∀ i : grid0.Coords, EltTy.bits .f32 = 32 ∨ (Rect.block (s := S8x2048x1) S1x2048x1.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x512.size a ≤ S8x2048x512.size a
  hwx1_0 : ∀ i : grid1.Coords, EltTy.bits .f32 = 32 ∨ (Rect.block (s := S8x2048x512) S1x512x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2048x512.size a ≤ S8x2048x512.size a
  hwx1_1 : ∀ i : grid1.Coords, EltTy.bits .f32 = 32 ∨ (Rect.block (s := S8x2048x512) S1x2048x512.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x512x1.size a ≤ S8x2048x1.size a
  hwx1_2 : ∀ i : grid1.Coords, EltTy.bits .f32 = 32 ∨ (Rect.block (s := S8x2048x1) S1x512x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1x2048.size a ≤ S8x1x2048.size a
  hwx1_3 : ∀ i : grid1.Coords, EltTy.bits .f32 = 32 ∨ (Rect.block (s := S8x1x2048) S1x1x2048.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x512x2048.size a ≤ S8x2048x2048.size a
  hwx1_4 : ∀ i : grid1.Coords, EltTy.bits .f32 = 32 ∨ (Rect.block (s := S8x2048x2048) S1x512x2048.size (cc1_transform_4 i) (hinb1_4 i)).WholeWords (EltTy.packing .f32)

variable [Facts₀]

def dot_S512x512_S2048x512_S512x2048_1_1_0_0_n_n : DotDims S512x512 S2048x512 S512x2048 where
  lhsContracting := [1]
  rhsContracting := [1]
  lhsNonContracting := [0]
  rhsNonContracting := [0]
  lhsBatch := []
  rhsBatch := []
  wf := dot_S512x512_S2048x512_S512x2048_1_1_0_0_n_n_wf

abbrev win0_0 : Pipeline.Window sig grid0 :=
  Pipeline.Window.ofSpec (Memref.whole main_arg0) S1x2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x2048x1.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_arg0) S1x512x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S1x2048x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v0) S1x512x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v1) S1x1x2048.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v2) S1x512x2048.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S8x2048x512 : Shape := ⟨3, ![8, 2048, 512]⟩
abbrev S_ : Shape := ⟨0, ![]⟩
abbrev S8x2048 : Shape := ⟨2, ![8, 2048]⟩
abbrev S8x2048x2048 : Shape := ⟨3, ![8, 2048, 2048]⟩
abbrev S8x2048x1 : Shape := ⟨3, ![8, 2048, 1]⟩
abbrev S8x1x2048 : Shape := ⟨3, ![8, 1, 2048]⟩

abbrev nBuf : Space → Nat
  | .hbm => 15
  | .vmem => 0
  | .smem => 0
  | _ => 0

abbrev bufTy : (tb : Table) → Fin (tcTables nBuf tb) → BufTy
  | .hbm, ⟨0, _⟩ => ⟨S8x2048x512, .f32⟩
  | .hbm, ⟨1, _⟩ => ⟨S8x2048x512, .f32⟩
  | .hbm, ⟨2, _⟩ => ⟨S_, .f32⟩
  | .hbm, ⟨3, _⟩ => ⟨S8x2048, .f32⟩
  | .hbm, ⟨4, _⟩ => ⟨S8x2048, .f32⟩
  | .hbm, ⟨5, _⟩ => ⟨S8x2048x2048, .f32⟩
  | .hbm, ⟨6, _⟩ => ⟨S8x2048x1, .f32⟩
  | .hbm, ⟨7, _⟩ => ⟨S8x1x2048, .f32⟩
  | .hbm, ⟨8, _⟩ => ⟨S8x2048x2048, .f32⟩
  | .hbm, ⟨9, _⟩ => ⟨S8x2048x2048, .f32⟩
  | .hbm, ⟨10, _⟩ => ⟨S8x2048x2048, .f32⟩
  | .hbm, ⟨11, _⟩ => ⟨S8x2048x2048, .f32⟩
  | .hbm, ⟨12, _⟩ => ⟨S_, .f32⟩
  | .hbm, ⟨13, _⟩ => ⟨S8x2048x2048, .f32⟩
  | .hbm, ⟨14, _⟩ => ⟨S8x2048x2048, .f32⟩
  | _, _ => ⟨S8x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_call0_v0 : Ref sig .tc := ⟨.hbm, 1, rfl⟩
abbrev main_call0_cst : Ref sig .tc := ⟨.hbm, 2, rfl⟩
abbrev main_call0_v1 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]

class Facts₀ : Prop where
  reducesTo_S8x2048x512_S8x2048_d2 : S8x2048x512.ReducesTo [2] S8x2048
  h_S_ : 0 < S_.numel
  bcast_S8x2048_S8x2048x1_0_1 : S8x2048.BroadcastsInDim S8x2048x1 (![0, 1] : Fin 2 → Fin S8x2048x1.rank)
  bcast_S8x2048_S8x1x2048_0_2 : S8x2048.BroadcastsInDim S8x1x2048 (![0, 2] : Fin 2 → Fin S8x1x2048.rank)
  bcast_S8x2048x1_S8x2048x2048_0_1_2 : S8x2048x1.BroadcastsInDim S8x2048x2048 (![0, 1, 2] : Fin 3 → Fin S8x2048x2048.rank)
  bcast_S8x1x2048_S8x2048x2048_0_1_2 : S8x1x2048.BroadcastsInDim S8x2048x2048 (![0, 1, 2] : Fin 3 → Fin S8x2048x2048.rank)
  bcast_S_S8x2048x2048 : S_.BroadcastsInDim S8x2048x2048 (![] : Fin 0 → Fin S8x2048x2048.rank)
  dot_S8x2048x512_S8x2048x512_S8x2048x2048_2_2_1_1_0_0_wf : DotDims.WF S8x2048x512 S8x2048x512 S8x2048x2048 [2] [2] [1] [1] [0] [0]

variable [Facts₀]

def dot_S8x2048x512_S8x2048x512_S8x2048x2048_2_2_1_1_0_0 : DotDims S8x2048x512 S8x2048x512 S8x2048x2048 where
  lhsContracting := [2]
  rhsContracting := [2]
  lhsNonContracting := [1]
  rhsNonContracting := [1]
  lhsBatch := [0]
  rhsBatch := [0]
  wf := dot_S8x2048x512_S8x2048x512_S8x2048x2048_2_2_1_1_0_0_wf

class Facts : Prop extends Facts₀ where

variable [Facts]
-- ==== Proof.NormBodyBits.lean ====
/-
  The first region: the row norms.  For each of the eight matrices the body loads the whole 2048 x 512 block, and stores
  into the 2048 x 1 output block the square root of each row's sum of squares (the payload of the one store).

  Stated here at any contents `V` of the core's buffers when the region is entered: what the input window's staging
  buffer holds when the body runs (the matrix's block, fetched at every point), what the body leaves in the output
  window's buffer (the store's payload of that block, read back through the one rectangle that covers the buffer), the
  body's triple, the proof data and the body obligation at a generic grid point.
-/
import proofs.«162493_j23201413333423_2_alg».proof.Proof.Gen.Kernel.Launch
import proofs.«162493_j23201413333423_2_alg».proof.Proof.Gen.Kernel.Skeleton
import proofs.«162493_j23201413333423_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Kernel.Facts₀

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's staging buffer holds the matrix's block whenever the body runs, for any proof data over the
    entry contents whose body leaves that block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The one rectangle the body stores through: the whole output block. -/
abbrev r0_0 : Rect S1x2048x1 := Rect.unit (s := S1x2048x1) ![0, 0, 0] S1x2048x1.size Facts₀.inb_S1x2048x1_S1x2048x1_0_0_0
/-- and the one it loads the matrix through: the whole input block. -/
abbrev l0_0 : Rect S1x2048x512 := Rect.unit (s := S1x2048x512) ![0, 0, 0] S1x2048x512.size Facts₀.inb_S1x2048x512_S1x2048x512_0_0_0

/-- The output window's buffer after the body, from the matrix block: the store's payload behind its rectangle. -/
def out0_1 (x0 : Vec F S1x2048x512 .f32) : Vec F S1x2048x1 .f32 :=
  View.canon [⟨r0_0, k0_pay1 (View.ld x0 l0_0)⟩]

/-- The store's rectangle covers the buffer. -/
theorem cover0_1 (p0 : Vec F S1x2048x1 .f32) (y : S1x2048x1.Idx) :
    ∃ pc ∈ ([⟨r0_0, p0⟩] : List (View.Piece (Elt F) S1x2048x1 .f32)), y ∈ pc.1.set :=
  View.cover_of_tiled [⟨r0_0, p0⟩] S1x2048x1.size (by rfl) y

set_option maxHeartbeats 1000000 in
/-- The body on whole staging memrefs, the input's at contents `x0` and the output's at anything, runs to the
    continuation with the input's as it was and the output's at `out0_1 x0`. -/
theorem sound_kernel0 (c : Dev nD) (E : Set ℕ) (i : grid0.Coords) (arg1 : Memref sig .tc .vmem S1x2048x512 .f32) (harg1 : arg1.IsWhole)
    (arg2 : Memref sig .tc .vmem S1x2048x1 .f32) (harg2 : arg2.IsWhole)
    (x0 : Vec F S1x2048x512 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out0_1 x0)) -∗ K ⟨⟩))
      ⊢ wp frame (wpE (defs₀ (F := F)) Variants.none c none) E (cc0__norm_kernel i arg1 harg1 arg2 harg2) K := by
  simp only [cc0__norm_kernel_eq_skeleton]; unfold cc0__norm_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

/-- The proof data of the first pipeline on core `c`: the arrays as the region finds them; after the body the input's
    buffer at its block and the output's at `out0_1` of it; the invariant the scoped rest and the generator register,
    untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]

theorem before0_0 (c : Dev nD) (t : Fin cfg0.N) (d) : (dat0 V c).before 0 t d = iblk0 V c 0 t :=
  before0_0_of V (dat0 V c) (A_eq0 V c 0) (after0_0 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ _ _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The body obligation of the first pipeline, at every point. -/
theorem body_obligation0 (c : Dev nD) : BodyObligation (dat0 (F := F) V c) (defs₀ (F := F)) Variants.none () Set.univ := fun t => by
  rw [bigSep_W0, bigSep_W0]
  exact sound_body0 V c t

end Cert.Kernel.Frame

end
-- ==== Proof.CosBodyBits.lean ====
/-
  The second region: the similarity tiles.  At grid point (b, i) the body loads a 512 x 512 block of query rows, the
  whole 2048 x 512 matrix of key rows (both are blocks of the ONE input array), the 512 x 1 column of the query rows'
  norms and the 1 x 2048 row of all the norms, and stores into the 512 x 2048 output block the clamped quotient of the
  products by the norms (the payload of the one store).

  Stated here at any contents `V` of the core's buffers when the region is entered: what each input window's staging
  buffer holds when the body runs — its array's block at the point, whether the pipeline fetched it there or kept it
  from the point before (the key matrix and the norm row are fetched once per batch) —, what the body leaves in the
  output window's buffer, the body's triple, the proof data and the body obligation at a generic grid point.
  The two windows on the input array each hold it at one half of the share; the others hold theirs whole.
-/
import proofs.«162493_j23201413333423_2_alg».proof.Proof.Gen.Kernel.Launch
import proofs.«162493_j23201413333423_2_alg».proof.Proof.Gen.Kernel.Skeleton
import proofs.«162493_j23201413333423_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Kernel.Facts₀

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Each input window's staging buffer holds its array's block at the point whenever the body runs — fetched there, or
    kept from the point before, where the block's index was the same — for any proof data over the entry contents
    whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- The rectangles the body loads through (each a whole input block) and the one it stores through (the whole
    output block). -/
abbrev l1_0 : Rect S1x512x512 := Rect.unit (s := S1x512x512) ![0, 0, 0] S1x512x512.size Facts₀.inb_S1x512x512_S1x512x512_0_0_0
abbrev l1_1 : Rect S1x2048x512 := Rect.unit (s := S1x2048x512) ![0, 0, 0] S1x2048x512.size Facts₀.inb_S1x2048x512_S1x2048x512_0_0_0
abbrev l1_2 : Rect S1x512x1 := Rect.unit (s := S1x512x1) ![0, 0, 0] S1x512x1.size Facts₀.inb_S1x512x1_S1x512x1_0_0_0
abbrev l1_3 : Rect S1x1x2048 := Rect.unit (s := S1x1x2048) ![0, 0, 0] S1x1x2048.size Facts₀.inb_S1x1x2048_S1x1x2048_0_0_0
abbrev r1_0 : Rect S1x512x2048 := Rect.unit (s := S1x512x2048) ![0, 0, 0] S1x512x2048.size Facts₀.inb_S1x512x2048_S1x512x2048_0_0_0

/-- The output window's buffer after the body, from the four input blocks: the store's payload behind its rectangle. -/
def out1_4 (x0 : Vec F S1x512x512 .f32) (x1 : Vec F S1x2048x512 .f32) (x2 : Vec F S1x512x1 .f32) (x3 : Vec F S1x1x2048 .f32) : Vec F S1x512x2048 .f32 :=
  View.canon [⟨r1_0, k1_pay1 (View.ld x0 l1_0) (View.ld x1 l1_1) (View.ld x2 l1_2) (View.ld x3 l1_3)⟩]

/-- The store's rectangle covers the buffer. -/
theorem cover1_4 (p0 : Vec F S1x512x2048 .f32) (y : S1x512x2048.Idx) :
    ∃ pc ∈ ([⟨r1_0, p0⟩] : List (View.Piece (Elt F) S1x512x2048 .f32)), y ∈ pc.1.set :=
  View.cover_of_tiled [⟨r1_0, p0⟩] S1x512x2048.size (by rfl) y

set_option maxHeartbeats 1000000 in
/-- The body on whole staging memrefs, the inputs' at contents `x0 … x3` and the output's at anything, runs to the
    continuation with the inputs' as they were and the output's at `out1_4` of them. -/
theorem sound_kernel1 (c : Dev nD) (E : Set ℕ) (i : grid1.Coords)
    (arg2 : Memref sig .tc .vmem S1x512x512 .f32) (harg2 : arg2.IsWhole) (arg3 : Memref sig .tc .vmem S1x2048x512 .f32) (harg3 : arg3.IsWhole)
    (arg4 : Memref sig .tc .vmem S1x512x1 .f32) (harg4 : arg4.IsWhole) (arg5 : Memref sig .tc .vmem S1x1x2048 .f32) (harg5 : arg5.IsWhole)
    (arg6 : Memref sig .tc .vmem S1x512x2048 .f32) (harg6 : arg6.IsWhole)
    (x0 : Vec F S1x512x512 .f32) (x1 : Vec F S1x2048x512 .f32) (x2 : Vec F S1x512x1 .f32) (x3 : Vec F S1x1x2048 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (out1_4 x0 x1 x2 x3)) -∗ K ⟨⟩))
      ⊢ wp frame (wpE (defs₀ (F := F)) Variants.none c none) E (cc1__cos_kernel i arg2 harg2 arg3 harg3 arg4 harg4 arg5 harg5 arg6 harg6) K := by
  simp only [cc1__cos_kernel_eq_skeleton]; unfold cc1__cos_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

/-- The two halves of the full share: what each of the two windows on the input array holds of it. -/
abbrev shareQ : PosShare TreeShare := fullShare.left
abbrev shareK : PosShare TreeShare := fullShare.right

/-- The proof data of the second pipeline on core `c`: the arrays as the region finds them; after the body each
    input's buffer at its block and the output's at `out1_4` of the four blocks; the invariant the scoped rest and the
    generator register, untouched; nothing owed; the input array's share dealt in two halves to the two windows on
    it, the norms' arrays held whole. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q w := match w with
    | ⟨0, _⟩ => shareQ
    | ⟨1, _⟩ => shareK
    | ⟨2, _⟩ => fullShare
    | ⟨3, _⟩ => fullShare
    | ⟨4, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = out1_4 (iblk1 V c 0 t) (iblk1 V c 1 t) (iblk1 V c 2 t) (iblk1 V c 3 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation of the second pipeline, at every point. -/
theorem body_obligation1 (c : Dev nD) : BodyObligation (dat1 (F := F) V c) (defs₀ (F := F)) Variants.none () Set.univ := fun t => by
  rw [bigSep_W1, bigSep_W1]
  exact sound_body1 V c t

end Cert.Kernel.Frame

end
-- ==== Proof.CosSharesBits.lean ====
/-
  The second region's arrays and the share of the input array.

  The region is handed four distinct buffers whole — the input array, the norm column, the norm row and the result —
  while its five windows name the input array twice.  On entry the input array's full share is cut into its two
  halves, one for the window of query rows and one for the window of key rows; on exit the two halves, which still
  hold the array as entered (an input window never writes), are put together again.  The other arrays pass whole.
-/
import proofs.«162493_j23201413333423_2_alg».proof.Proof.CosBodyBits

set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The distinct buffers behind the second region's windows, one by one. -/
theorem arrBufs1_eq (c : Dev nD) (V : (b : Ref sig .tc) → Buf (Elt F) ((c : Thread nD τ).loc b)) :
    (Pipeline.arrBufs (Ix := Unit) (Name := ℕ) (U := UR sig nD τ) (Lvl := ℕ) spec1 c V : sProp 𝕄)
      = iprop((((c : Thread nD τ).loc main_arg0) ↦{fullShare} V main_arg0) ∗ (((c : Thread nD τ).loc main_v0) ↦{fullShare} V main_v0)
          ∗ (((c : Thread nD τ).loc main_v1) ↦{fullShare} V main_v1) ∗ (((c : Thread nD τ).loc main_v2) ↦{fullShare} V main_v2)) := by
  unfold Pipeline.arrBufs
  exact bigSep_eq_bigSepL_of_eq [main_arg0, main_v0, main_v1, main_v2] (by decide) (by decide) _

variable (V : (c : Dev nD) → (b : Ref sig .tc) → Buf (Elt F) ((c : Thread nD τ).loc b))

/-- The second pipeline's arrays at contents `G`, window by window: the input array at its two halves, the rest whole. -/
theorem arrays1_eq (c : Dev nD) (G : (w : Fin cfg1.W) → Buf (Elt F) ((cfg1.win w).arr.view.loc (c : Thread nD τ))) :
    ((dat1 V c).arrays G : sProp 𝕄)
      = iprop((((c : Thread nD τ).loc main_arg0) ↦{shareQ} G 0) ∗ (((c : Thread nD τ).loc main_arg0) ↦{shareK} G 1)
          ∗ (((c : Thread nD τ).loc main_v0) ↦{fullShare} G 2) ∗ (((c : Thread nD τ).loc main_v1) ↦{fullShare} G 3)
          ∗ (((c : Thread nD τ).loc main_v2) ↦{fullShare} G 4)) := by
  unfold Dat.arrays
  rw [bigSep_W1, (arr_whole1 0).set_eq_univ, (arr_whole1 2).set_eq_univ, (arr_whole1 3).set_eq_univ,
    (arr_whole1 4).set_eq_univ]
  rfl

/-- ENTRY: the four buffers whole at the entry contents make the pipeline's arrays at their entry contents. -/
theorem deal1 (c : Dev nD) :
    (Pipeline.arrBufs (Ix := Unit) (Name := ℕ) (U := UR sig nD τ) (Lvl := ℕ) spec1 c (V c) : sProp 𝕄)
      ⊢ (dat1 V c).arrays ((dat1 V c).arrAt · 0) := by
  rw [arrBufs1_eq, arrays1_eq]
  iintro ⟨Hx, H0, H1, H2⟩
  ihave Hx' := (pointsTo_share (PosShare.mem_left_op_right fullShare)).1 $$ Hx
  icases Hx' with ⟨HxL, HxR⟩
  isplitl [HxL]; · iexact HxL
  isplitl [HxR]; · iexact HxR
  isplitl [H0]; · iexact H0
  isplitl [H1]; · iexact H1
  iexact H2

/-- EXIT: the pipeline's arrays after the last write-back make the four buffers whole, at any contents that have the
    three input arrays as entered and the result at what the write-backs left. -/
theorem gather1 (c : Dev nD) (V' : (b : Ref sig .tc) → Buf (Elt F) ((c : Thread nD τ).loc b))
    (h0 : V' main_arg0 = V c main_arg0) (h1 : V' main_v0 = V c main_v0) (h2 : V' main_v1 = V c main_v1)
    (h3 : V' main_v2 = (dat1 V c).arrAt 4 cfg1.N) :
    ((dat1 V c).arrays ((dat1 V c).arrAt · cfg1.N) : sProp 𝕄)
      ⊢ Pipeline.arrBufs (Ix := Unit) (Name := ℕ) (U := UR sig nD τ) (Lvl := ℕ) spec1 c V' := by
  rw [arrBufs1_eq, arrays1_eq, h0, h1, h2, h3, (dat1 V c).arrAt_in 0 rfl, (dat1 V c).arrAt_in 1 rfl, (dat1 V c).arrAt_in 2 rfl,
    (dat1 V c).arrAt_in 3 rfl]
  iintro ⟨HxL, HxR, H0, H1, H2⟩
  isplitl [HxL HxR]
  · iapply (pointsTo_share (PosShare.mem_left_op_right fullShare)).2
    isplitl [HxL]; · iexact HxL
    iexact HxR
  isplitl [H0]; · iexact H0
  isplitl [H1]; · iexact H1
  iexact H2

end Cert.Kernel.Frame

end
-- ==== Proof.RunBits.lean ====
/-
  The whole run: the first region, the transposition of the norm column into a norm row on the host, the second region.

  The contents of the core's unscoped buffers at each boundary are a fold from the launch memory: after the first
  region the norm column holds what its eight write-backs left and every other buffer is as launched; after the host
  line the norm row is the column transposed; after the second region the result array holds what its thirty-two
  write-backs left and every other buffer — the input array among them, which the region only reads, through two
  windows that each hold half of its share — is as before.  Each region is entered from "every unscoped buffer at the
  boundary's contents, the generator register at some state, nothing owed" and left in the same form, and the library's
  theorem for a list of regions and host stretches composes them.  The conclusion names the final contents of every
  unscoped buffer; the input array's are the launch contents, and the result array's are read off the second pipeline's
  proof data.
-/
import proofs.«162493_j23201413333423_2_alg».proof.Proof.NormBodyBits
import proofs.«162493_j23201413333423_2_alg».proof.Proof.CosSharesBits

set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch (the first region's entry). -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b
/-- At the first region's exit: its arrays at what the pipeline leaves, every other buffer as entered. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After the host line (the second region's entry). -/
abbrev W2 : Dev nD → Valuation τ sig (Elt F) := fun c => StableHlo.after hostOps1 (W1 m ρ c)
abbrev V2 : (c : Dev nD) → (b : Ref sig .tc) → Buf (Elt F) ((c : Thread nD τ).loc b) := fun c b => W2 m ρ c b
/-- At the second region's exit: the result array at what the pipeline leaves, every other buffer as entered. -/
def W3 (c : Dev nD) : Valuation τ sig (Elt F) :=
  Function.update (W2 m ρ c) (Proc.devRef .tc main_v2) ((dat1 (V2 m ρ) c).arrAt 4 cfg1.N)
abbrev V3 : (c : Dev nD) → (b : Ref sig .tc) → Buf (Elt F) ((c : Thread nD τ).loc b) := fun c b => W3 m ρ c b
theorem W3_main_v2 (c : Dev nD) : W3 m ρ c (Proc.devRef .tc main_v2) = (dat1 (V2 m ρ) c).arrAt 4 cfg1.N := by
  unfold W3; exact Function.update_self ..
theorem W3_of_ne (c : Dev nD) (b : Ref sig .tc) (hb : b ≠ main_v2) :
    W3 m ρ c (Proc.devRef .tc b) = W2 m ρ c (Proc.devRef .tc b) := by
  unfold W3; exact Function.update_of_ne (StableHlo.devRef_ne_of_ne hb) ..

/-- No line of the host stretch writes the input array or the norm column. -/
theorem W2_of_ne (c : Dev nD) (b : Ref sig .tc) (hb : b ≠ main_v1) :
    W2 m ρ c (Proc.devRef .tc b) = W1 m ρ c (Proc.devRef .tc b) :=
  StableHlo.after_of_forall_not_mem (b := Proc.devRef .tc b) _ _ (List.forall_iff_forall_mem.mp (by
    simp only [hostOps1, List.Forall, StableHlo.unary_writes, Finset.mem_singleton]
    exact StableHlo.devRef_ne_of_ne hb))

/-- The second region finds the input array as launched, -/
theorem W2_main_arg0 (c : Dev nD) : W2 m ρ c (Proc.devRef .tc main_arg0) = m ((c : Thread nD τ).loc main_arg0) :=
  calc W2 m ρ c (Proc.devRef .tc main_arg0)
    _ = W1 m ρ c (Proc.devRef .tc main_arg0) := W2_of_ne m ρ c main_arg0 (by decide)
    _ = W0 m ρ c (Proc.devRef .tc main_arg0) := (W1_arr m ρ c 0).trans (((dat0 (V0 m ρ) c).arrAt_in 0 rfl _).trans (A_eq0 (V0 m ρ) c 0))
    _ = m ((c : Thread nD τ).loc main_arg0) := rfl
/-- and it ends as launched. -/
theorem W3_main_arg0 (c : Dev nD) : W3 m ρ c (Proc.devRef .tc main_arg0) = m ((c : Thread nD τ).loc main_arg0) :=
  (W3_of_ne m ρ c main_arg0 (by decide)).trans (W2_main_arg0 m ρ c)

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps1_fresh : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W3 m ρ c) ∗ ∃ r, prngReg c r)

/-! ## The regions as segments -/

set_option backward.isDefEq.respectTransparency.types false in
/-- The first region over the thread state: entered from every unscoped buffer at `W0`, left at `W1`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The unscoped buffers at the second region's entry are the four buffers behind its windows: there is no other. -/
theorem entry1 (c : Dev nD) :
    (StableHlo.held (c : Thread nD τ) (Pipeline.ucRefs τ sig) (W2 m ρ c) : sProp 𝕄)
      = Pipeline.arrBufs (Ix := Unit) (Name := ℕ) (U := UR sig nD τ) (Lvl := ℕ) spec1 c (V2 m ρ c) := by
  rw [← Pipeline.unscopedBufs_held]
  have h := Pipeline.unscopedBufs_split₀ (Ix := Unit) (Name := ℕ) (U := UR sig nD τ) (Lvl := ℕ) cfgs 1 winFacts₀1.arr_unscoped c (V2 m ρ c)
  change _ = iprop(Pipeline.arrBufs spec1 c (V2 m ρ c) ∗ Pipeline.unscopedRest spec1 c (V2 m ρ c)) at h
  rw [unscopedRest1_eq] at h
  exact h.trans (equiv_iff.mp sep_emp)
theorem exit1 (c : Dev nD) :
    (StableHlo.held (c : Thread nD τ) (Pipeline.ucRefs τ sig) (W3 m ρ c) : sProp 𝕄)
      = Pipeline.arrBufs (Ix := Unit) (Name := ℕ) (U := UR sig nD τ) (Lvl := ℕ) spec1 c (V3 m ρ c) := by
  rw [← Pipeline.unscopedBufs_held]
  have h := Pipeline.unscopedBufs_split₀ (Ix := Unit) (Name := ℕ) (U := UR sig nD τ) (Lvl := ℕ) cfgs 1 winFacts₀1.arr_unscoped c (V3 m ρ c)
  change _ = iprop(Pipeline.arrBufs spec1 c (V3 m ρ c) ∗ Pipeline.unscopedRest spec1 c (V3 m ρ c)) at h
  rw [unscopedRest1_eq] at h
  exact h.trans (equiv_iff.mp sep_emp)

set_option backward.isDefEq.respectTransparency.types false in
/-- The second region over the thread state: entered from every unscoped buffer at `W2`, left at `W3`.  The input
    array's share is dealt to its two windows on entry and put together on exit. -/
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := iprop(emp)
  hentry c := by
    rw [Pipeline.ownSems0_none, entry1]
    iintro ⟨⟨Hub, Hp, HO⟩, -, -⟩
    ihave Ha := (deal1 (V2 m ρ) c) $$ Hub
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iempintro
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := gather1 (V2 m ρ) c (V3 m ρ c) (W3_of_ne m ρ c main_arg0 (by decide)) (W3_of_ne m ρ c main_v0 (by decide))
      (W3_of_ne m ρ c main_v1 (by decide)) (W3_main_v2 m ρ c)
    rw [← exit1] at hjoin
    iintro ⟨Ha, HO, HY, -⟩
    imodintro
    isplitl [Ha HY]
    · isplitl [Ha]
      · iapply hjoin; iexact Ha
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .region (reg0 m ρ),
    .host (hseg hostOps1 hostOps1_sub hostOps1_fresh (W1 m ρ)),
    .region (reg1 m ρ) ]
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting,
    and every final state holds each unscoped buffer at the last boundary's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

/-- The frame: the input array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun r h c => (h c _ (mem_uc main_arg0 (by decide))).trans (W3_main_arg0 m ρ c)) (run_main m ρ)

/-- The run with the result array named: it ends at what the second pipeline's write-backs leave. -/
theorem run_result : θ_run defs (onTc (τ := τ) (main (F := F))) ⟨m, fun _ => 0, ρ⟩ (fun r => ∀ c : Dev nD,
      r.2.mem ((c.tc : Thread nD τ).loc main_v2) = (dat1 (V2 m ρ) c).arrAt 4 cfg1.N
      ∧ r.2.mem ((c.tc : Thread nD τ).loc main_arg0) = m ((c.tc : Thread nD τ).loc main_arg0)) :=
  (θ_run defs _ _).mono (fun r h c => ⟨(h c _ (mem_uc main_v2 (by decide))).trans (W3_main_v2 m ρ c),
    (h c _ (mem_uc main_arg0 (by decide))).trans (W3_main_arg0 m ρ c)⟩) (run_main m ρ)

end Cert.Kernel.Frame

end
-- ==== Proof.NormBodyIdeal.lean ====
/-
  The first region: the row norms.  For each of the eight matrices the body loads the whole 2048 x 512 block, and stores
  into the 2048 x 1 output block the square root of each row's sum of squares (the payload of the one store).

  Stated here at any contents `V` of the core's buffers when the region is entered: what the input window's staging
  buffer holds when the body runs (the matrix's block, fetched at every point), what the body leaves in the output
  window's buffer (the store's payload of that block, read back through the one rectangle that covers the buffer), the
  body's triple, the proof data and the body obligation at a generic grid point.
-/
import proofs.«162493_j23201413333423_2_alg».proof.Proof.Gen.KernelIdeal.Launch
import proofs.«162493_j23201413333423_2_alg».proof.Proof.Gen.KernelIdeal.Skeleton
import proofs.«162493_j23201413333423_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Facts₀

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's staging buffer holds the matrix's block whenever the body runs, for any proof data over the
    entry contents whose body leaves that block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The one rectangle the body stores through: the whole output block. -/
abbrev r0_0 : Rect S1x2048x1 := Rect.unit (s := S1x2048x1) ![0, 0, 0] S1x2048x1.size Facts₀.inb_S1x2048x1_S1x2048x1_0_0_0
/-- and the one it loads the matrix through: the whole input block. -/
abbrev l0_0 : Rect S1x2048x512 := Rect.unit (s := S1x2048x512) ![0, 0, 0] S1x2048x512.size Facts₀.inb_S1x2048x512_S1x2048x512_0_0_0

/-- The output window's buffer after the body, from the matrix block: the store's payload behind its rectangle. -/
def out0_1 (x0 : Vec F S1x2048x512 .f32) : Vec F S1x2048x1 .f32 :=
  View.canon [⟨r0_0, k0_pay1 (View.ld x0 l0_0)⟩]

/-- The store's rectangle covers the buffer. -/
theorem cover0_1 (p0 : Vec F S1x2048x1 .f32) (y : S1x2048x1.Idx) :
    ∃ pc ∈ ([⟨r0_0, p0⟩] : List (View.Piece (Elt F) S1x2048x1 .f32)), y ∈ pc.1.set :=
  View.cover_of_tiled [⟨r0_0, p0⟩] S1x2048x1.size (by rfl) y

set_option maxHeartbeats 1000000 in
/-- The body on whole staging memrefs, the input's at contents `x0` and the output's at anything, runs to the
    continuation with the input's as it was and the output's at `out0_1 x0`. -/
theorem sound_kernel0 (c : Dev nD) (E : Set ℕ) (i : grid0.Coords) (arg1 : Memref sig .tc .vmem S1x2048x512 .f32) (harg1 : arg1.IsWhole)
    (arg2 : Memref sig .tc .vmem S1x2048x1 .f32) (harg2 : arg2.IsWhole)
    (x0 : Vec F S1x2048x512 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out0_1 x0)) -∗ K ⟨⟩))
      ⊢ wp frame (wpE (defs₀ (F := F)) Variants.none c none) E (cc0__norm_kernel i arg1 harg1 arg2 harg2) K := by
  simp only [cc0__norm_kernel_eq_skeleton]; unfold cc0__norm_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

/-- The proof data of the first pipeline on core `c`: the arrays as the region finds them; after the body the input's
    buffer at its block and the output's at `out0_1` of it; the invariant the scoped rest and the generator register,
    untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]

theorem before0_0 (c : Dev nD) (t : Fin cfg0.N) (d) : (dat0 V c).before 0 t d = iblk0 V c 0 t :=
  before0_0_of V (dat0 V c) (A_eq0 V c 0) (after0_0 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ _ _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The body obligation of the first pipeline, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Frame

end
-- ==== Proof.CosBodyIdeal.lean ====
/-
  The second region: the similarity tiles.  At grid point (b, i) the body loads a 512 x 512 block of query rows, the
  whole 2048 x 512 matrix of key rows (both are blocks of the ONE input array), the 512 x 1 column of the query rows'
  norms and the 1 x 2048 row of all the norms, and stores into the 512 x 2048 output block the clamped quotient of the
  products by the norms (the payload of the one store).

  Stated here at any contents `V` of the core's buffers when the region is entered: what each input window's staging
  buffer holds when the body runs — its array's block at the point, whether the pipeline fetched it there or kept it
  from the point before (the key matrix and the norm row are fetched once per batch) —, what the body leaves in the
  output window's buffer, the body's triple, the proof data and the body obligation at a generic grid point.
  The two windows on the input array each hold it at one half of the share; the others hold theirs whole.
-/
import proofs.«162493_j23201413333423_2_alg».proof.Proof.Gen.KernelIdeal.Launch
import proofs.«162493_j23201413333423_2_alg».proof.Proof.Gen.KernelIdeal.Skeleton
import proofs.«162493_j23201413333423_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Facts₀

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Each input window's staging buffer holds its array's block at the point whenever the body runs — fetched there, or
    kept from the point before, where the block's index was the same — for any proof data over the entry contents
    whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- The rectangles the body loads through (each a whole input block) and the one it stores through (the whole
    output block). -/
abbrev l1_0 : Rect S1x512x512 := Rect.unit (s := S1x512x512) ![0, 0, 0] S1x512x512.size Facts₀.inb_S1x512x512_S1x512x512_0_0_0
abbrev l1_1 : Rect S1x2048x512 := Rect.unit (s := S1x2048x512) ![0, 0, 0] S1x2048x512.size Facts₀.inb_S1x2048x512_S1x2048x512_0_0_0
abbrev l1_2 : Rect S1x512x1 := Rect.unit (s := S1x512x1) ![0, 0, 0] S1x512x1.size Facts₀.inb_S1x512x1_S1x512x1_0_0_0
abbrev l1_3 : Rect S1x1x2048 := Rect.unit (s := S1x1x2048) ![0, 0, 0] S1x1x2048.size Facts₀.inb_S1x1x2048_S1x1x2048_0_0_0
abbrev r1_0 : Rect S1x512x2048 := Rect.unit (s := S1x512x2048) ![0, 0, 0] S1x512x2048.size Facts₀.inb_S1x512x2048_S1x512x2048_0_0_0

/-- The output window's buffer after the body, from the four input blocks: the store's payload behind its rectangle. -/
def out1_4 (x0 : Vec F S1x512x512 .f32) (x1 : Vec F S1x2048x512 .f32) (x2 : Vec F S1x512x1 .f32) (x3 : Vec F S1x1x2048 .f32) : Vec F S1x512x2048 .f32 :=
  View.canon [⟨r1_0, k1_pay1 (View.ld x0 l1_0) (View.ld x1 l1_1) (View.ld x2 l1_2) (View.ld x3 l1_3)⟩]

/-- The store's rectangle covers the buffer. -/
theorem cover1_4 (p0 : Vec F S1x512x2048 .f32) (y : S1x512x2048.Idx) :
    ∃ pc ∈ ([⟨r1_0, p0⟩] : List (View.Piece (Elt F) S1x512x2048 .f32)), y ∈ pc.1.set :=
  View.cover_of_tiled [⟨r1_0, p0⟩] S1x512x2048.size (by rfl) y

set_option maxHeartbeats 1000000 in
/-- The body on whole staging memrefs, the inputs' at contents `x0 … x3` and the output's at anything, runs to the
    continuation with the inputs' as they were and the output's at `out1_4` of them. -/
theorem sound_kernel1 (c : Dev nD) (E : Set ℕ) (i : grid1.Coords)
    (arg2 : Memref sig .tc .vmem S1x512x512 .f32) (harg2 : arg2.IsWhole) (arg3 : Memref sig .tc .vmem S1x2048x512 .f32) (harg3 : arg3.IsWhole)
    (arg4 : Memref sig .tc .vmem S1x512x1 .f32) (harg4 : arg4.IsWhole) (arg5 : Memref sig .tc .vmem S1x1x2048 .f32) (harg5 : arg5.IsWhole)
    (arg6 : Memref sig .tc .vmem S1x512x2048 .f32) (harg6 : arg6.IsWhole)
    (x0 : Vec F S1x512x512 .f32) (x1 : Vec F S1x2048x512 .f32) (x2 : Vec F S1x512x1 .f32) (x3 : Vec F S1x1x2048 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (out1_4 x0 x1 x2 x3)) -∗ K ⟨⟩))
      ⊢ wp frame (wpE (defs₀ (F := F)) Variants.none c none) E (cc1__cos_kernel i arg2 harg2 arg3 harg3 arg4 harg4 arg5 harg5 arg6 harg6) K := by
  simp only [cc1__cos_kernel_eq_skeleton]; unfold cc1__cos_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

/-- The two halves of the full share: what each of the two windows on the input array holds of it. -/
abbrev shareQ : PosShare TreeShare := fullShare.left
abbrev shareK : PosShare TreeShare := fullShare.right

/-- The proof data of the second pipeline on core `c`: the arrays as the region finds them; after the body each
    input's buffer at its block and the output's at `out1_4` of the four blocks; the invariant the scoped rest and the
    generator register, untouched; nothing owed; the input array's share dealt in two halves to the two windows on
    it, the norms' arrays held whole. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q w := match w with
    | ⟨0, _⟩ => shareQ
    | ⟨1, _⟩ => shareK
    | ⟨2, _⟩ => fullShare
    | ⟨3, _⟩ => fullShare
    | ⟨4, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = out1_4 (iblk1 V c 0 t) (iblk1 V c 1 t) (iblk1 V c 2 t) (iblk1 V c 3 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation of the second pipeline, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Frame

end
-- ==== Proof.CosSharesIdeal.lean ====
/-
  The second region's arrays and the share of the input array.

  The region is handed four distinct buffers whole — the input array, the norm column, the norm row and the result —
  while its five windows name the input array twice.  On entry the input array's full share is cut into its two
  halves, one for the window of query rows and one for the window of key rows; on exit the two halves, which still
  hold the array as entered (an input window never writes), are put together again.  The other arrays pass whole.
-/
import proofs.«162493_j23201413333423_2_alg».proof.Proof.CosBodyIdeal

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The distinct buffers behind the second region's windows, one by one. -/
theorem arrBufs1_eq (c : Dev nD) (V : (b : Ref sig .tc) → Buf (Elt F) ((c : Thread nD τ).loc b)) :
    (Pipeline.arrBufs (Ix := Unit) (Name := ℕ) (U := UR sig nD τ) (Lvl := ℕ) spec1 c V : sProp 𝕄)
      = iprop((((c : Thread nD τ).loc main_arg0) ↦{fullShare} V main_arg0) ∗ (((c : Thread nD τ).loc main_v0) ↦{fullShare} V main_v0)
          ∗ (((c : Thread nD τ).loc main_v1) ↦{fullShare} V main_v1) ∗ (((c : Thread nD τ).loc main_v2) ↦{fullShare} V main_v2)) := by
  unfold Pipeline.arrBufs
  exact bigSep_eq_bigSepL_of_eq [main_arg0, main_v0, main_v1, main_v2] (by decide) (by decide) _

variable (V : (c : Dev nD) → (b : Ref sig .tc) → Buf (Elt F) ((c : Thread nD τ).loc b))

/-- The second pipeline's arrays at contents `G`, window by window: the input array at its two halves, the rest whole. -/
theorem arrays1_eq (c : Dev nD) (G : (w : Fin cfg1.W) → Buf (Elt F) ((cfg1.win w).arr.view.loc (c : Thread nD τ))) :
    ((dat1 V c).arrays G : sProp 𝕄)
      = iprop((((c : Thread nD τ).loc main_arg0) ↦{shareQ} G 0) ∗ (((c : Thread nD τ).loc main_arg0) ↦{shareK} G 1)
          ∗ (((c : Thread nD τ).loc main_v0) ↦{fullShare} G 2) ∗ (((c : Thread nD τ).loc main_v1) ↦{fullShare} G 3)
          ∗ (((c : Thread nD τ).loc main_v2) ↦{fullShare} G 4)) := by
  unfold Dat.arrays
  rw [bigSep_W1, (arr_whole1 0).set_eq_univ, (arr_whole1 2).set_eq_univ, (arr_whole1 3).set_eq_univ,
    (arr_whole1 4).set_eq_univ]
  rfl

/-- ENTRY: the four buffers whole at the entry contents make the pipeline's arrays at their entry contents. -/
theorem deal1 (c : Dev nD) :
    (Pipeline.arrBufs (Ix := Unit) (Name := ℕ) (U := UR sig nD τ) (Lvl := ℕ) spec1 c (V c) : sProp 𝕄)
      ⊢ (dat1 V c).arrays ((dat1 V c).arrAt · 0) := by
  rw [arrBufs1_eq, arrays1_eq]
  iintro ⟨Hx, H0, H1, H2⟩
  ihave Hx' := (pointsTo_share (PosShare.mem_left_op_right fullShare)).1 $$ Hx
  icases Hx' with ⟨HxL, HxR⟩
  isplitl [HxL]; · iexact HxL
  isplitl [HxR]; · iexact HxR
  isplitl [H0]; · iexact H0
  isplitl [H1]; · iexact H1
  iexact H2

/-- EXIT: the pipeline's arrays after the last write-back make the four buffers whole, at any contents that have the
    three input arrays as entered and the result at what the write-backs left. -/
theorem gather1 (c : Dev nD) (V' : (b : Ref sig .tc) → Buf (Elt F) ((c : Thread nD τ).loc b))
    (h0 : V' main_arg0 = V c main_arg0) (h1 : V' main_v0 = V c main_v0) (h2 : V' main_v1 = V c main_v1)
    (h3 : V' main_v2 = (dat1 V c).arrAt 4 cfg1.N) :
    ((dat1 V c).arrays ((dat1 V c).arrAt · cfg1.N) : sProp 𝕄)
      ⊢ Pipeline.arrBufs (Ix := Unit) (Name := ℕ) (U := UR sig nD τ) (Lvl := ℕ) spec1 c V' := by
  rw [arrBufs1_eq, arrays1_eq, h0, h1, h2, h3, (dat1 V c).arrAt_in 0 rfl, (dat1 V c).arrAt_in 1 rfl, (dat1 V c).arrAt_in 2 rfl,
    (dat1 V c).arrAt_in 3 rfl]
  iintro ⟨HxL, HxR, H0, H1, H2⟩
  isplitl [HxL HxR]
  · iapply (pointsTo_share (PosShare.mem_left_op_right fullShare)).2
    isplitl [HxL]; · iexact HxL
    iexact HxR
  isplitl [H0]; · iexact H0
  isplitl [H1]; · iexact H1
  iexact H2

end Cert.KernelIdeal.Frame

end
-- ==== Proof.RunIdeal.lean ====
/-
  The whole run: the first region, the transposition of the norm column into a norm row on the host, the second region.

  The contents of the core's unscoped buffers at each boundary are a fold from the launch memory: after the first
  region the norm column holds what its eight write-backs left and every other buffer is as launched; after the host
  line the norm row is the column transposed; after the second region the result array holds what its thirty-two
  write-backs left and every other buffer — the input array among them, which the region only reads, through two
  windows that each hold half of its share — is as before.  Each region is entered from "every unscoped buffer at the
  boundary's contents, the generator register at some state, nothing owed" and left in the same form, and the library's
  theorem for a list of regions and host stretches composes them.  The conclusion names the final contents of every
  unscoped buffer; the input array's are the launch contents, and the result array's are read off the second pipeline's
  proof data.
-/
import proofs.«162493_j23201413333423_2_alg».proof.Proof.NormBodyIdeal
import proofs.«162493_j23201413333423_2_alg».proof.Proof.CosSharesIdeal

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch (the first region's entry). -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b
/-- At the first region's exit: its arrays at what the pipeline leaves, every other buffer as entered. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After the host line (the second region's entry). -/
abbrev W2 : Dev nD → Valuation τ sig (Elt F) := fun c => StableHlo.after hostOps1 (W1 m ρ c)
abbrev V2 : (c : Dev nD) → (b : Ref sig .tc) → Buf (Elt F) ((c : Thread nD τ).loc b) := fun c b => W2 m ρ c b
/-- At the second region's exit: the result array at what the pipeline leaves, every other buffer as entered. -/
def W3 (c : Dev nD) : Valuation τ sig (Elt F) :=
  Function.update (W2 m ρ c) (Proc.devRef .tc main_v2) ((dat1 (V2 m ρ) c).arrAt 4 cfg1.N)
abbrev V3 : (c : Dev nD) → (b : Ref sig .tc) → Buf (Elt F) ((c : Thread nD τ).loc b) := fun c b => W3 m ρ c b
theorem W3_main_v2 (c : Dev nD) : W3 m ρ c (Proc.devRef .tc main_v2) = (dat1 (V2 m ρ) c).arrAt 4 cfg1.N := by
  unfold W3; exact Function.update_self ..
theorem W3_of_ne (c : Dev nD) (b : Ref sig .tc) (hb : b ≠ main_v2) :
    W3 m ρ c (Proc.devRef .tc b) = W2 m ρ c (Proc.devRef .tc b) := by
  unfold W3; exact Function.update_of_ne (StableHlo.devRef_ne_of_ne hb) ..

/-- No line of the host stretch writes the input array or the norm column. -/
theorem W2_of_ne (c : Dev nD) (b : Ref sig .tc) (hb : b ≠ main_v1) :
    W2 m ρ c (Proc.devRef .tc b) = W1 m ρ c (Proc.devRef .tc b) :=
  StableHlo.after_of_forall_not_mem (b := Proc.devRef .tc b) _ _ (List.forall_iff_forall_mem.mp (by
    simp only [hostOps1, List.Forall, StableHlo.unary_writes, Finset.mem_singleton]
    exact StableHlo.devRef_ne_of_ne hb))

/-- The second region finds the input array as launched, -/
theorem W2_main_arg0 (c : Dev nD) : W2 m ρ c (Proc.devRef .tc main_arg0) = m ((c : Thread nD τ).loc main_arg0) :=
  calc W2 m ρ c (Proc.devRef .tc main_arg0)
    _ = W1 m ρ c (Proc.devRef .tc main_arg0) := W2_of_ne m ρ c main_arg0 (by decide)
    _ = W0 m ρ c (Proc.devRef .tc main_arg0) := (W1_arr m ρ c 0).trans (((dat0 (V0 m ρ) c).arrAt_in 0 rfl _).trans (A_eq0 (V0 m ρ) c 0))
    _ = m ((c : Thread nD τ).loc main_arg0) := rfl
/-- and it ends as launched. -/
theorem W3_main_arg0 (c : Dev nD) : W3 m ρ c (Proc.devRef .tc main_arg0) = m ((c : Thread nD τ).loc main_arg0) :=
  (W3_of_ne m ρ c main_arg0 (by decide)).trans (W2_main_arg0 m ρ c)

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps1_fresh : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W3 m ρ c) ∗ ∃ r, prngReg c r)

/-! ## The regions as segments -/

set_option backward.isDefEq.respectTransparency.types false in
/-- The first region over the thread state: entered from every unscoped buffer at `W0`, left at `W1`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The unscoped buffers at the second region's entry are the four buffers behind its windows: there is no other. -/
theorem entry1 (c : Dev nD) :
    (StableHlo.held (c : Thread nD τ) (Pipeline.ucRefs τ sig) (W2 m ρ c) : sProp 𝕄)
      = Pipeline.arrBufs (Ix := Unit) (Name := ℕ) (U := UR sig nD τ) (Lvl := ℕ) spec1 c (V2 m ρ c) := by
  rw [← Pipeline.unscopedBufs_held]
  have h := Pipeline.unscopedBufs_split₀ (Ix := Unit) (Name := ℕ) (U := UR sig nD τ) (Lvl := ℕ) cfgs 1 winFacts₀1.arr_unscoped c (V2 m ρ c)
  change _ = iprop(Pipeline.arrBufs spec1 c (V2 m ρ c) ∗ Pipeline.unscopedRest spec1 c (V2 m ρ c)) at h
  rw [unscopedRest1_eq] at h
  exact h.trans (equiv_iff.mp sep_emp)
theorem exit1 (c : Dev nD) :
    (StableHlo.held (c : Thread nD τ) (Pipeline.ucRefs τ sig) (W3 m ρ c) : sProp 𝕄)
      = Pipeline.arrBufs (Ix := Unit) (Name := ℕ) (U := UR sig nD τ) (Lvl := ℕ) spec1 c (V3 m ρ c) := by
  rw [← Pipeline.unscopedBufs_held]
  have h := Pipeline.unscopedBufs_split₀ (Ix := Unit) (Name := ℕ) (U := UR sig nD τ) (Lvl := ℕ) cfgs 1 winFacts₀1.arr_unscoped c (V3 m ρ c)
  change _ = iprop(Pipeline.arrBufs spec1 c (V3 m ρ c) ∗ Pipeline.unscopedRest spec1 c (V3 m ρ c)) at h
  rw [unscopedRest1_eq] at h
  exact h.trans (equiv_iff.mp sep_emp)

set_option backward.isDefEq.respectTransparency.types false in
/-- The second region over the thread state: entered from every unscoped buffer at `W2`, left at `W3`.  The input
    array's share is dealt to its two windows on entry and put together on exit. -/
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := iprop(emp)
  hentry c := by
    rw [Pipeline.ownSems0_none, entry1]
    iintro ⟨⟨Hub, Hp, HO⟩, -, -⟩
    ihave Ha := (deal1 (V2 m ρ) c) $$ Hub
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iempintro
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := gather1 (V2 m ρ) c (V3 m ρ c) (W3_of_ne m ρ c main_arg0 (by decide)) (W3_of_ne m ρ c main_v0 (by decide))
      (W3_of_ne m ρ c main_v1 (by decide)) (W3_main_v2 m ρ c)
    rw [← exit1] at hjoin
    iintro ⟨Ha, HO, HY, -⟩
    imodintro
    isplitl [Ha HY]
    · isplitl [Ha]
      · iapply hjoin; iexact Ha
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .region (reg0 m ρ),
    .host (hseg hostOps1 hostOps1_sub hostOps1_fresh (W1 m ρ)),
    .region (reg1 m ρ) ]
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting,
    and every final state holds each unscoped buffer at the last boundary's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

/-- The frame: the input array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun r h c => (h c _ (mem_uc main_arg0 (by decide))).trans (W3_main_arg0 m ρ c)) (run_main m ρ)

/-- The run with the result array named: it ends at what the second pipeline's write-backs leave. -/
theorem run_result : θ_run defs (onTc (τ := τ) (main (F := F))) ⟨m, fun _ => 0, ρ⟩ (fun r => ∀ c : Dev nD,
      r.2.mem ((c.tc : Thread nD τ).loc main_v2) = (dat1 (V2 m ρ) c).arrAt 4 cfg1.N
      ∧ r.2.mem ((c.tc : Thread nD τ).loc main_arg0) = m ((c.tc : Thread nD τ).loc main_arg0)) :=
  (θ_run defs _ _).mono (fun r h c => ⟨(h c _ (mem_uc main_v2 (by decide))).trans (W3_main_v2 m ρ c),
    (h c _ (mem_uc main_arg0 (by decide))).trans (W3_main_arg0 m ρ c)⟩) (run_main m ρ)

end Cert.KernelIdeal.Frame

end
-- ==== Proof.Spec.lean ====
/-
  The specification: the cosine similarity of every pair of rows of each of eight 2048 x 512 matrices, clamped
  from below, as ONE function of the input array over the extended reals.

  For a batch b and rows s, t:  sim x (b, s, t) = max ( <x[b,s,:], x[b,t,:]> / (|x[b,s,:]| * |x[b,t,:]|) ) eps,
  with |v| = sqrt (0 + sum_k v_k * v_k) (the sum started from the zero the reduction is seeded with), the quotient
  the extended reals' (a zero row divides by zero on both sides alike), and eps the value of the float word
  0x358637BD (about 1e-6), the same word in both programs.
-/
import Idealize.ShloMosaic.PureOps.Ideal
import Idealize.ShloMosaic.Lib.ValueIdx

noncomputable section

open scoped BigOperators

namespace CosSim

open Idealize.ShloMosaic Idealize.ShloMosaic.ValueIdx

/-- The input's shape and the result's. -/
abbrev SX : Shape := ⟨3, ![8, 2048, 512]⟩
abbrev SO : Shape := ⟨3, ![8, 2048, 2048]⟩

/-- The clamp: the extended real the float word denotes. -/
def eps : EReal := Ideal.ofBits .f32 0x358637BD#32

/-- The inner product of rows s and t of matrix b. -/
def dot (x : SX.Idx → EReal) (b : Fin 8) (s t : Fin 2048) : EReal :=
  ∑ k : Fin 512, x (ix3 b s k) * x (ix3 b t k)

/-- The Euclidean length of row s of matrix b. -/
def norm (x : SX.Idx → EReal) (b : Fin 8) (s : Fin 2048) : EReal :=
  Ideal.sqrt (0 + ∑ k : Fin 512, x (ix3 b s k) * x (ix3 b s k))

/-- The clamped cosine of the angle between rows s and t of matrix b. -/
def simAt (x : SX.Idx → EReal) (b : Fin 8) (s t : Fin 2048) : EReal :=
  max (Ideal.div (dot x b s t) (norm x b s * norm x b t)) eps

/-- The whole result array. -/
def sim (x : SX.Idx → EReal) : SO.Idx → EReal := fun j => simAt x (j 0) (j 1) (j 2)

theorem sim_ix3 (x : SX.Idx → EReal) (b : Fin 8) (s t : Fin 2048) : sim x (ix3 b s t) = simAt x b s t := rfl

end CosSim

end
-- ==== Proof.RefSim.lean ====
/-
  The reference program computes the specification.

  The reference's result is, index by index, max ( dot_general(x, x) / (|x_s| * |x_t|), eps ), with the row
  norms sqrt (0 + sum_k x*x) broadcast along the two row axes.  Read at the index (b, s, t): the dot_general is the
  sum over k of x[b,s,k] * x[b,t,k], the first broadcast chain reads the norm of row s, the second that of row t.
-/
import proofs.«162493_j23201413333423_2_alg».proof.Proof.Gen.ReferenceIdeal.Run
import proofs.«162493_j23201413333423_2_alg».proof.Proof.Gen.ReferenceIdeal.Read
import proofs.«162493_j23201413333423_2_alg».proof.Proof.Spec

noncomputable section

open scoped BigOperators

namespace Cert.ReferenceIdeal.RefValue

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx

/-- The left operand of the product at (b, s, t) and contraction index k is x[b, s, k]. -/
theorem lidx_eq (b : Fin 8) (s t : Fin 2048) (k : Fin 512) : lidx_main_v1 (ix3 b s t) k = ix3 b s k :=
  funext fun a => Fin.ext (by match a with | ⟨0, _⟩ => rfl | ⟨1, _⟩ => rfl | ⟨2, _⟩ => rfl)

/-- The right operand of the product at (b, s, t) and contraction index k is x[b, t, k]. -/
theorem ridx_eq (b : Fin 8) (s t : Fin 2048) (k : Fin 512) : ridx_main_v1 (ix3 b s t) k = ix3 b t k :=
  funext fun a => Fin.ext (by match a with | ⟨0, _⟩ => rfl | ⟨1, _⟩ => rfl | ⟨2, _⟩ => rfl)

/-- The norm broadcast along the last axis reads, at (b, s, t), the squares of row s. -/
theorem nidx_row_eq (b : Fin 8) (s t : Fin 2048) (k : Fin 512) :
    idx_main_call0_v1 (idx_main_v2 (idx_main_v4 (ix3 b s t))) k = ix3 b s k :=
  funext fun a => Fin.ext (by match a with | ⟨0, _⟩ => rfl | ⟨1, _⟩ => rfl | ⟨2, _⟩ => rfl)

/-- The norm broadcast along the middle axis reads, at (b, s, t), the squares of row t. -/
theorem nidx_col_eq (b : Fin 8) (s t : Fin 2048) (k : Fin 512) :
    idx_main_call0_v1 (idx_main_v3 (idx_main_v5 (ix3 b s t))) k = ix3 b t k :=
  funext fun a => Fin.ext (by match a with | ⟨0, _⟩ => rfl | ⟨1, _⟩ => rfl | ⟨2, _⟩ => rfl)

/-- The reference's composed term is the specification. -/
theorem val_eq_sim (x : CosSim.SX.Idx → EReal) : val_main_v9 (F := Ideal) x = CosSim.sim x := by
  funext j
  obtain ⟨b, s, t, rfl⟩ : ∃ (b : Fin 8) (s t : Fin 2048), j = ix3 b s t := ⟨j 0, j 1, j 2, eq_ix3 j⟩
  rw [CosSim.sim_ix3]
  rw [val_main_v9_apply, val_main_v7_apply, val_main_v1_apply, val_main_v6_apply, val_main_v4_apply, val_main_v2_apply,
    val_main_v0_apply, val_main_call0_v1_apply, val_main_v5_apply, val_main_v3_apply, val_main_v0_apply,
    val_main_call0_v1_apply, val_main_v8_apply, val_main_cst_apply, val_main_call0_cst_apply]
  simp only [val_main_call0_v0_apply, lidx_eq, ridx_eq, nidx_row_eq, nidx_col_eq, Ideal.mulf_def, Ideal.hostDivf_def,
    Ideal.maximumf_def, Ideal.hostUnary_sqrt_def, Ideal.ofBits_def, Ideal.ofBits_zero_f32]
  rfl

/-- Every run of the reference leaves the specification of its argument in its result, the argument unchanged. -/
theorem ref_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v9) = CosSim.sim (m ((c.tc : Thread nD τ).loc main_arg0))
      ∧ r.2.mem ((c.tc : Thread nD τ).loc main_arg0) = m ((c.tc : Thread nD τ).loc main_arg0) :=
  (θ_run defs _ _).mono (fun _ h c => ⟨(h c).1.trans ((val_main_v9_eq _).trans (val_eq_sim _)), (h c).2⟩)
    (Cert.ReferenceIdeal.Value.run (F := Ideal) m ρ)

end Cert.ReferenceIdeal.RefValue

end
-- ==== Proof.Finite.lean ====
/-
  Finiteness of the input from the precondition.

  The precondition computes, entry by entry, the comparison |x| < +inf (the float word 0x7F800000 is +inf),
  and reduces all the answers by "and" from 1.  If the result is 1 then every comparison came out 1, so no
  entry is +inf, -inf; an extended real that is neither is a real number.
-/
import proofs.«162493_j23201413333423_2_alg».proof.Proof.Spec
import proofs.«162493_j23201413333423_2_alg».proof.Proof.Gen.Pre_finite_inputs
import Idealize.ShloMosaic.Lib.ReduceAll

noncomputable section

namespace CosSim

open Idealize.ShloMosaic Idealize.ShloMosaic.ValueIdx

/-- The result of a reduction over every axis has one index. -/
instance subsingleton_scalar_idx : Subsingleton Cert.Pre_finite_inputs.S_.Idx :=
  ⟨fun _ _ => funext fun d => d.elim0⟩

/-- The float word 0x7F800000 denotes +inf. -/
theorem ofBits_inf : Ideal.ofBits .f32 0x7F800000#32 = (⊤ : EReal) := by
  simp [Ideal.ofBits, Ideal.ieee]

/-- An extended real whose absolute value max y (-y) is below +inf is a real number. -/
theorem real_of_abs_lt_top (y : EReal) (hy : max y (-y) < (⊤ : EReal)) : ∃ r : ℝ, y = (r : EReal) := by
  induction y using EReal.rec with
  | bot => simp at hy
  | coe r => exact ⟨r, rfl⟩
  | top => simp at hy

/-- Under the precondition every entry of the input is a real number. -/
theorem finite_of_pre (x : SX.Idx → EReal) (h : Cert.Pre_finite_inputs.fn (F := Ideal) x = fun _ => 1#1) :
    ∀ i, ∃ r : ℝ, x i = (r : EReal) := by
  intro i
  have h0 := congrFun h ValueIdx.ix0
  dsimp only [Cert.Pre_finite_inputs.fn] at h0
  have h1 := Host.reduce_andi_all _ _ _ _ _ h0 i
  have h2 : Ideal.cmp .olt (max (x i) (-(x i))) (Ideal.ofBits .f32 0x7F800000#32) = 1#1 := h1
  rw [ofBits_inf] at h2
  refine real_of_abs_lt_top (x i) ?_
  by_contra hn
  simp [Ideal.cmp, hn] at h2

end CosSim

end
-- ==== Proof.NormPayload.lean ====
/-
  The row-norm kernel's stored value read at an index, at the ideal values: entry (0, r, 0) of what the first kernel
  stores is the square root of the sum, started from zero, of the squares of row r of its input block.
-/
import proofs.«162493_j23201413333423_2_alg».proof.Proof.Gen.KernelIdeal.Skeleton
import proofs.«162493_j23201413333423_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.PayloadValue

open Idealize.ShloMosaic Idealize.ShloMosaic.ValueIdx Cert.KernelIdeal Cert.KernelIdeal.Gen

/-- A vector of length a viewed as a column [a, 1] reads, at (i, u), the vector at i. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The sum along the rows of a 2048 x 512 matrix of extended reals, read at row r: the sum over the 512 columns. -/
theorem rowSum_apply (src : FVec Ideal S2048x512 .f32) (h : S2048x512.Reduces [1] S2048) (hφ : FKind.Formats .f32)
    (hacc : (0x00000000#32 : BitVec 32) = 0x00000000#32) (r : Fin 2048) :
    multiReduction (F := Ideal) .add [1] S2048 src 0x00000000#32 h hφ hacc (ix1 r) = ∑ k : Fin 512, src (ix2 r k) := by
  refine (Ideal.multiReduction_add_single src 0x00000000#32 h hφ hacc (ix1 r)).trans ?_
  refine Finset.sum_congr rfl fun k _ => congrArg src (funext fun c => Fin.ext ?_)
  match c with
  | ⟨0, _⟩ => rfl
  | ⟨1, _⟩ => rfl

/-- Entry (0, r, 0) of the first kernel's stored value. -/
theorem k0_pay1_apply (x0 : Vec Ideal Cert.KernelIdeal.S1x2048x512 .f32) (r : Fin 2048) :
    Cert.KernelIdeal.Gen.k0_pay1 (F := Ideal) x0 (ix3 (0 : Fin 1) r (0 : Fin 1))
      = Ideal.sqrt (0 + ∑ k : Fin 512, x0 (ix3 (0 : Fin 1) r k) * x0 (ix3 (0 : Fin 1) r k)) := by
  unfold Cert.KernelIdeal.Gen.k0_pay1
  refine (shapeCast_ab_1ab_apply _ _ (0 : Fin 1) r (0 : Fin 1)).trans ?_
  show Ideal.sqrt _ = Ideal.sqrt _
  refine congrArg Ideal.sqrt ?_
  refine (shapeCast_a_a1_apply _ _ r (0 : Fin 1)).trans ?_
  refine (rowSum_apply _ _ _ _ r).trans ?_
  refine (zero_add _).symm.trans (congrArg (0 + ·) ?_)
  refine Finset.sum_congr rfl fun k _ => ?_
  show shapeCast S2048x512 x0 _ (ix2 r k) * shapeCast S2048x512 x0 _ (ix2 r k) = _
  rw [shapeCast_1ab_ab_apply x0 _ r k]

end Cert.KernelIdeal.PayloadValue

end
-- ==== Proof.NormValue.lean ====
/-
  The first region's value: the norm column, and the norm row the host line makes of it.

  Point t of the first grid (t = 0..7) loads matrix t of the input (a 1 x 2048 x 512 block) and stores the 1 x 2048 x 1
  block of its rows' norms, sqrt (0 + sum_k x^2); the write-back puts that block at rows t of the 8 x 2048 x 1 output.
  The eight blocks tile the output, so after the region it holds, at (b, s, 0), the norm of row s of matrix b.  The
  host line transposes the last two axes: the 8 x 1 x 2048 array it writes holds at (b, 0, t) the norm of row t.
-/
import proofs.«162493_j23201413333423_2_alg».proof.Proof.RunIdeal
import proofs.«162493_j23201413333423_2_alg».proof.Proof.NormPayload
import proofs.«162493_j23201413333423_2_alg».proof.Proof.Spec
import Idealize.ShloMosaic.Lib.Pipeline.Value

set_option maxRecDepth 16384

noncomputable section

open scoped BigOperators

namespace Cert.KernelIdeal.Frame

open Idealize.ShloMosaic Idealize.ShloMosaic.TcCoe Idealize.SL.Sem Idealize.ShloMosaic.ValueIdx Idealize.ShloMosaic.StableHlo
open Idealize.ShloMosaic.Pipeline (Dat)
open Cert.KernelIdeal Cert.KernelIdeal.Gen

section Region

variable (V : (c : Dev nD) → (b : Ref sig .tc) → Buf (Elt Ideal) ((c : Thread nD τ).loc b))

/-- The zero offsets of a whole-block rectangle. -/
theorem no_offsets3 : (![0, 0, 0] : Fin 3 → Nat) = fun _ => 0 := funext fun a => by fin_cases a <;> rfl

/-- The norm column of an array of eight matrices. -/
abbrev normCol (X : S8x2048x512.Idx → EReal) : S8x2048x1.Idx → EReal := fun i => CosSim.norm X (i 0) (i 1)

/-- The two index maps, decided over the eight grid points: point t reads matrix t and writes norm column t. -/
theorem row_block_index_facts : ∀ t : Fin cfg0.N, win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0 :=
  (by decide +kernel : ∀ t : Fin grid0.N, _)

/-- What the body stores, read at any index of the 1 x 2048 x 1 block: the norm of the row the middle coordinate names. -/
theorem norm_block_apply (x0 : Vec Ideal S1x2048x512 .f32) (j : S1x2048x1.Idx) :
    k0_pay1 (F := Ideal) x0 j = Ideal.sqrt (0 + ∑ k : Fin 512, x0 (ix3 (n0 := 1) (n1 := 2048) (n2 := 512) 0 (j 1) k) * x0 (ix3 (n0 := 1) (n1 := 2048) (n2 := 512) 0 (j 1) k)) := by
  obtain ⟨a, r, u, rfl⟩ : ∃ (a : Fin 1) (r : Fin 2048) (u : Fin 1), j = ix3 a r u := ⟨j 0, j 1, j 2, eq_ix3 j⟩
  obtain rfl : a = 0 := Subsingleton.elim _ _
  obtain rfl : u = 0 := Subsingleton.elim _ _
  exact Cert.KernelIdeal.PayloadValue.k0_pay1_apply x0 r

/-- The input window's block at point t is matrix t of the array: a block's coordinate is index x size + the coordinate
    inside the block. -/
theorem iblk0_apply (c : Dev nD) (t : Fin cfg0.N) (x : S1x2048x512.Idx) (k : S8x2048x512.Idx)
    (hk0 : (k 0).val = t.val) (hk1 : (k 1).val = (x 1).val) (hk2 : (k 2).val = (x 2).val) :
    (iblk0 V c 0 t : Vec Ideal S1x2048x512 .f32) x = (V c main_arg0 : S8x2048x512.Idx → EReal) k := by
  obtain ⟨e0, e1, e2, -⟩ := row_block_index_facts t
  unfold iblk0
  rw [View.read_apply]
  show V c main_arg0 _ = V c main_arg0 _
  congr 1
  funext a
  apply Fin.ext
  have h0 : (x 0).val < 1 := (x 0).isLt
  match a with
  | ⟨0, _⟩ => show win0_0.index t (0 : Fin 3) * 1 + 1 * (x 0).val = (k 0).val; omega
  | ⟨1, _⟩ => show win0_0.index t (1 : Fin 3) * 2048 + 1 * (x 1).val = (k 1).val; omega
  | ⟨2, _⟩ => show win0_0.index t (2 : Fin 3) * 512 + 1 * (x 2).val = (k 2).val; omega

/-- What point t writes back is block t of the norm column of the array as the region finds it. -/
theorem flushed_norm_eq (c : Dev nD) (t : Fin cfg0.N) :
    (dat0 (F := Ideal) V c).flushed 1 t = ((cfg0.win 1).blk t).view.read (Elt Ideal) (normCol (V c main_arg0)) := by
  show (cfg0.win 1).cut (grid0.coords t) ((dat0 V c).after 1 t) = _
  rw [after0_1]
  unfold out0_1
  rw [View.canon_unit_zero no_offsets3]
  simp only [View.ld_unit_zero (S := S1x2048x512) no_offsets3]
  funext j
  show k0_pay1 (F := Ideal) (iblk0 V c 0 t) j = normCol (V c main_arg0) (((cfg0.win 1).blk t).view.emb j)
  refine (norm_block_apply _ j).trans ?_
  obtain ⟨-, -, -, e3, e4, e5⟩ := row_block_index_facts t
  have hj0 : (j 0).val < 1 := (j 0).isLt
  have hj1 : (j 1).val < 2048 := (j 1).isLt
  have h0 : ((((cfg0.win 1).blk t).view.emb j) 0).val = t.val := by
    show win0_1.index t (0 : Fin 3) * 1 + 1 * (j 0).val = t.val; omega
  have h1 : ((((cfg0.win 1).blk t).view.emb j) 1).val = (j 1).val := by
    show win0_1.index t (1 : Fin 3) * 2048 + 1 * (j 1).val = (j 1).val; omega
  show Ideal.sqrt (0 + ∑ k : Fin 512, _) = Ideal.sqrt (0 + ∑ k : Fin 512, _)
  refine congrArg Ideal.sqrt (congrArg (0 + ·) (Finset.sum_congr rfl fun k _ => ?_))
  rw [iblk0_apply V c t (ix3 (n0 := 1) (n1 := 2048) (n2 := 512) 0 (j 1) k)
    (ix3 (n0 := 8) (n1 := 2048) (n2 := 512) ((((cfg0.win 1).blk t).view.emb j) 0) ((((cfg0.win 1).blk t).view.emb j) 1) k) h0 h1 rfl]

/-- Every index of the norm column lies in the block of the point named by its first coordinate. -/
theorem norm_cover (i : S8x2048x1.Idx) :
    ∃ t : Fin cfg0.N, (cfg0.win 1).flush t = true ∧ i ∈ ((cfg0.win 1).blk t).view.set := by
  have hi0 : (i 0).val < 8 := (i 0).isLt
  have hi1 : (i 1).val < 2048 := (i 1).isLt
  have hi2 : (i 2).val < 1 := (i 2).isLt
  obtain ⟨t, ht⟩ : ∃ t : Fin cfg0.N, t.val = (i 0).val := ⟨⟨(i 0).val, by rw [show cfg0.N = 8 from N_0]; exact hi0⟩, rfl⟩
  refine ⟨t, flush0_1 t, ?_⟩
  show i ∈ ((View.whole main_v0).slice (win0_1.rect t)).set
  rw [View.set_slice_whole, Rect.mem_set_unit]
  obtain ⟨-, -, -, e3, e4, e5⟩ := row_block_index_facts t
  intro a
  match a with
  | ⟨0, _⟩ => show win0_1.index t (0 : Fin 3) * 1 ≤ (i 0).val ∧ (i 0).val < win0_1.index t (0 : Fin 3) * 1 + 1; omega
  | ⟨1, _⟩ => show win0_1.index t (1 : Fin 3) * 2048 ≤ (i 1).val ∧ (i 1).val < win0_1.index t (1 : Fin 3) * 2048 + 2048; omega
  | ⟨2, _⟩ => show win0_1.index t (2 : Fin 3) * 1 ≤ (i 2).val ∧ (i 2).val < win0_1.index t (2 : Fin 3) * 1 + 1; omega

/-- The output array after the eight write-backs is the norm column, for any entry contents. -/
theorem norm_final_of (c : Dev nD) : (dat0 (F := Ideal) V c).arrAt 1 cfg0.N = normCol (V c main_arg0) :=
  (dat0 (F := Ideal) V c).arrAt_eq_of_cover 1 (normCol (V c main_arg0)) (fun t _ => flushed_norm_eq V c t) norm_cover

end Region

section Run

variable (m : (ℓ : Loc nD τ sig) → Buf (Elt Ideal) ℓ) (ρ : Dev nD → PrngReg)

/-- After the first region the norm column holds the norms of the launch input's rows. -/
theorem norm_final (c : Dev nD) :
    (dat0 (F := Ideal) (V0 m ρ) c).arrAt 1 cfg0.N
      = fun j : S8x2048x1.Idx => CosSim.norm (m ((c : Thread nD τ).loc main_arg0)) (j 0) (j 1) :=
  norm_final_of (V0 m ρ) c

/-- The norm column as the second region finds it: the host line does not write it. -/
theorem norm_col (c : Dev nD) :
    (V2 (F := Ideal) m ρ c main_v0 : S8x2048x1.Idx → EReal)
      = fun j : S8x2048x1.Idx => CosSim.norm (m ((c : Thread nD τ).loc main_arg0)) (j 0) (j 1) :=
  ((W2_of_ne m ρ c main_v0 (by decide)).trans (W1_arr m ρ c 1)).trans (norm_final m ρ c)

/-- The norm row as the second region finds it: the column with its last two axes exchanged. -/
theorem norm_row (c : Dev nD) :
    (V2 (F := Ideal) m ρ c main_v1 : S8x1x2048.Idx → EReal)
      = fun j : S8x1x2048.Idx => CosSim.norm (m ((c : Thread nD τ).loc main_arg0)) (j 0) (j 2) := by
  have e : (V2 (F := Ideal) m ρ c main_v1 : S8x1x2048.Idx → EReal)
      = transpose S8x1x2048 [0, 2, 1] (V1 (F := Ideal) m ρ c main_v0 : S8x2048x1.Idx → EReal) transposes_S8x2048x1_S8x1x2048_0_2_1 := by
    dsimp only [V2, W2, hostOps1]; after_results <;> rfl
  have hcol : (V1 (F := Ideal) m ρ c main_v0 : S8x2048x1.Idx → EReal)
      = fun j : S8x2048x1.Idx => CosSim.norm (m ((c : Thread nD τ).loc main_arg0)) (j 0) (j 1) :=
    (W1_arr m ρ c 1).trans (norm_final m ρ c)
  rw [e, hcol]
  funext j
  refine (transpose_apply _ _ _ j (ix3 (n0 := 8) (n1 := 2048) (n2 := 1) (j 0) (j 2) (j 1)) fun b => ?_).trans rfl
  match b with
  | ⟨0, _⟩ => rfl
  | ⟨1, _⟩ => rfl
  | ⟨2, _⟩ => rfl

end Run

end Cert.KernelIdeal.Frame

end
-- ==== Proof.CosPayload.lean ====
/-
  The cosine kernel's stored value read at an index, at the ideal values: entry (0, p, q) of what the second kernel
  stores is the clamped quotient of the three-term product sum of row p of its first block with row q of its second
  by the product of the two row lengths it is handed.
-/
import proofs.«162493_j23201413333423_2_alg».proof.Proof.Gen.KernelIdeal.Skeleton
import proofs.«162493_j23201413333423_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.PayloadValue

open Idealize.ShloMosaic Idealize.ShloMosaic.ValueIdx Cert.KernelIdeal Cert.KernelIdeal.Gen

/-! ## One column broadcast over many -/

/-- An [a, 1] array broadcast to [a, b] reads, at (p, c), the operand's one column at p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The matrix product contracting the second axis of both operands -/

/-- The left operand's index: row from the result's row … -/
theorem lhs_row (i : S512x2048.Idx) (k : dot_S512x512_S2048x512_S512x2048_1_1_0_0_n_n.contr.Idx) :
    (dot_S512x512_S2048x512_S512x2048_1_1_0_0_n_n.lhsIdx i k 0).val = (i 0).val := by
  unfold DotDims.lhsIdx
  rw [dif_neg (show ¬(0 : Fin S512x512.rank) ∈ dot_S512x512_S2048x512_S512x2048_1_1_0_0_n_n.lhsBatch by decide),
    dif_pos (show (0 : Fin S512x512.rank) ∈ dot_S512x512_S2048x512_S512x2048_1_1_0_0_n_n.lhsNonContracting by decide)]
  rfl
/-- … column from the contraction position. -/
theorem lhs_col (i : S512x2048.Idx) (k : dot_S512x512_S2048x512_S512x2048_1_1_0_0_n_n.contr.Idx) :
    (dot_S512x512_S2048x512_S512x2048_1_1_0_0_n_n.lhsIdx i k 1).val = (k ⟨0, by decide⟩).val :=
  dot_S512x512_S2048x512_S512x2048_1_1_0_0_n_n.lhsIdx_val_of_single rfl i k
/-- The right operand's index: row from the result's column … -/
theorem rhs_row (i : S512x2048.Idx) (k : dot_S512x512_S2048x512_S512x2048_1_1_0_0_n_n.contr.Idx) :
    (dot_S512x512_S2048x512_S512x2048_1_1_0_0_n_n.rhsIdx i k 0).val = (i 1).val := by
  unfold DotDims.rhsIdx
  rw [dif_neg (show ¬(0 : Fin S2048x512.rank) ∈ dot_S512x512_S2048x512_S512x2048_1_1_0_0_n_n.rhsBatch by decide),
    dif_pos (show (0 : Fin S2048x512.rank) ∈ dot_S512x512_S2048x512_S512x2048_1_1_0_0_n_n.rhsNonContracting by decide)]
  rfl
/-- … column from the contraction position. -/
theorem rhs_col (i : S512x2048.Idx) (k : dot_S512x512_S2048x512_S512x2048_1_1_0_0_n_n.contr.Idx) :
    (dot_S512x512_S2048x512_S512x2048_1_1_0_0_n_n.rhsIdx i k 1).val = (k ⟨0, by decide⟩).val :=
  dot_S512x512_S2048x512_S512x2048_1_1_0_0_n_n.rhsIdx_val_of_single rfl i k

/-- The product into the zero accumulator, read at (p, q): the sum over k of A at (p, k) times B at (q, k). -/
theorem matmul_zero_apply {φ₁ φ₂ : FTy} (A : FVec Ideal S512x512 φ₁) (B : FVec Ideal S2048x512 φ₂) (p : Fin 512) (q : Fin 2048) :
    matmul (F := Ideal) dot_S512x512_S2048x512_S512x2048_1_1_0_0_n_n none A B (constant (F := Ideal) S512x2048 .f32 0x00000000#32) (ix2 p q)
      = ∑ k : Fin 512, A (ix2 p k) * B (ix2 q k) := by
  refine (Ideal.matmul_constant_zero_apply dot_S512x512_S2048x512_S512x2048_1_1_0_0_n_n none A B (ix2 p q)).trans ?_
  rw [← Equiv.sum_comp (contrEquiv1 dot_S512x512_S2048x512_S512x2048_1_1_0_0_n_n 512 rfl rfl).symm]
  refine Finset.sum_congr rfl fun k _ => ?_
  have hk := contrEquiv1_symm_val dot_S512x512_S2048x512_S512x2048_1_1_0_0_n_n 512 rfl rfl k
  have el : dot_S512x512_S2048x512_S512x2048_1_1_0_0_n_n.lhsIdx (ix2 p q) ((contrEquiv1 dot_S512x512_S2048x512_S512x2048_1_1_0_0_n_n 512 rfl rfl).symm k) = ix2 p k :=
    funext fun a => Fin.ext (by
      match a with
      | ⟨0, _⟩ => exact lhs_row _ _
      | ⟨1, _⟩ => exact (lhs_col _ _).trans hk)
  have er : dot_S512x512_S2048x512_S512x2048_1_1_0_0_n_n.rhsIdx (ix2 p q) ((contrEquiv1 dot_S512x512_S2048x512_S512x2048_1_1_0_0_n_n 512 rfl rfl).symm k) = ix2 q k :=
    funext fun a => Fin.ext (by
      match a with
      | ⟨0, _⟩ => exact rhs_row _ _
      | ⟨1, _⟩ => exact (rhs_col _ _).trans hk)
  rw [el, er]

/-! ## The stored value at (0, p, q) -/

/-- Entry (0, p, q) of the second kernel's stored value. -/
theorem k1_pay1_apply (x0 : Vec Ideal Cert.KernelIdeal.S1x512x512 .f32) (x1 : Vec Ideal Cert.KernelIdeal.S1x2048x512 .f32)
    (n0 : Vec Ideal Cert.KernelIdeal.S1x512x1 .f32) (n1 : Vec Ideal Cert.KernelIdeal.S1x1x2048 .f32) (p : Fin 512) (q : Fin 2048) :
    Cert.KernelIdeal.Gen.k1_pay1 (F := Ideal) x0 x1 n0 n1 (ix3 (0 : Fin 1) p q)
      = max (Ideal.div
              (((0 + ∑ k : Fin 512, x0 (ix3 (0 : Fin 1) p k) * x1 (ix3 (0 : Fin 1) q k))
                + (0 + ∑ k : Fin 512, x0 (ix3 (0 : Fin 1) p k) * (x1 (ix3 (0 : Fin 1) q k) - x1 (ix3 (0 : Fin 1) q k))))
                + (0 + ∑ k : Fin 512, (x0 (ix3 (0 : Fin 1) p k) - x0 (ix3 (0 : Fin 1) p k)) * x1 (ix3 (0 : Fin 1) q k)))
              (n0 (ix3 (0 : Fin 1) p (0 : Fin 1)) * n1 (ix3 (0 : Fin 1) (0 : Fin 1) q)))
          CosSim.eps := by
  unfold Cert.KernelIdeal.Gen.k1_pay1
  refine (shapeCast_ab_1ab_apply _ _ (0 : Fin 1) p q).trans ?_
  refine (maximumf_apply _ _ _).trans (congrArg₂ (fun a b : EReal => max a b) ?_ ?_)
  · refine (divf_apply _ _ _).trans (congrArg₂ (fun a b : EReal => Ideal.div a b) ?_ ?_)
    · refine (addf_apply _ _ _).trans (congrArg₂ (fun a b : EReal => a + b) ?_ ?_)
      · refine (addf_apply _ _ _).trans (congrArg₂ (fun a b : EReal => a + b) ?_ ?_)
        · refine (matmul_zero_apply _ _ p q).trans ?_
          refine (zero_add _).symm.trans (congrArg (fun a : EReal => 0 + a) (Finset.sum_congr rfl fun k _ => ?_))
          exact congrArg₂ (fun a b : EReal => a * b) (shapeCast_1ab_ab_apply x0 _ p k) (shapeCast_1ab_ab_apply x1 _ q k)
        · refine (matmul_zero_apply _ _ p q).trans ?_
          refine (zero_add _).symm.trans (congrArg (fun a : EReal => 0 + a) (Finset.sum_congr rfl fun k _ => ?_))
          exact congrArg₂ (fun a b : EReal => a * b) (shapeCast_1ab_ab_apply x0 _ p k)
            (congrArg₂ (fun a b : EReal => a - b) (shapeCast_1ab_ab_apply x1 _ q k) (shapeCast_1ab_ab_apply x1 _ q k))
      · refine (matmul_zero_apply _ _ p q).trans ?_
        refine (zero_add _).symm.trans (congrArg (fun a : EReal => 0 + a) (Finset.sum_congr rfl fun k _ => ?_))
        exact congrArg₂ (fun a b : EReal => a * b)
          (congrArg₂ (fun a b : EReal => a - b) (shapeCast_1ab_ab_apply x0 _ p k) (shapeCast_1ab_ab_apply x0 _ p k))
          (shapeCast_1ab_ab_apply x1 _ q k)
    · refine (mulf_apply _ _ _).trans (congrArg₂ (fun a b : EReal => a * b) ?_ ?_)
      · refine (broadcastTo_a1_ab_apply _ _ p q).trans ?_
        exact shapeCast_1ab_ab_apply n0 _ p (0 : Fin 1)
      · refine (broadcastTo_1b_ab_apply _ _ p q).trans ?_
        exact shapeCast_1ab_ab_apply n1 _ (0 : Fin 1) q
  · rfl

end Cert.KernelIdeal.PayloadValue

end
-- ==== Proof.DotSplit.lean ====
/-
  The three-term emulation of the inner product collapses to the inner product.

  The product of rows s and t is computed as  hi*hi + hi*lo + lo*hi  with hi = x and lo = x - x.  For an
  entry that is a real number, x - x = 0, so the two correction sums are sums of zeros and the total is
  the plain inner product of the rows.
-/
import proofs.«162493_j23201413333423_2_alg».proof.Proof.Spec

noncomputable section

open scoped BigOperators

namespace CosSim

open Idealize.ShloMosaic Idealize.ShloMosaic.ValueIdx

/-- A real number minus itself is zero in the extended reals. -/
theorem coe_sub_self (r : ℝ) : ((r : EReal) - (r : EReal)) = 0 := by
  rw [← EReal.coe_sub, sub_self, EReal.coe_zero]

/-- The inner product emulated by three sums, the second and third against x - x, is the inner product. -/
theorem split_dot_eq (x : SX.Idx → EReal) (hx : ∀ i, ∃ r : ℝ, x i = (r : EReal)) (b : Fin 8) (s t : Fin 2048) :
    ((0 + ∑ k : Fin 512, x (ix3 b s k) * x (ix3 b t k))
      + (0 + ∑ k : Fin 512, x (ix3 b s k) * (x (ix3 b t k) - x (ix3 b t k))))
      + (0 + ∑ k : Fin 512, (x (ix3 b s k) - x (ix3 b s k)) * x (ix3 b t k)) = dot x b s t := by
  have hz : ∀ i, x i - x i = 0 := fun i => by
    obtain ⟨r, hr⟩ := hx i
    rw [hr]; exact coe_sub_self r
  have h2 : (∑ k : Fin 512, x (ix3 b s k) * (x (ix3 b t k) - x (ix3 b t k))) = 0 :=
    Finset.sum_eq_zero fun k _ => by rw [hz, mul_zero]
  have h3 : (∑ k : Fin 512, (x (ix3 b s k) - x (ix3 b s k)) * x (ix3 b t k)) = 0 :=
    Finset.sum_eq_zero fun k _ => by rw [hz, zero_mul]
  rw [h2, h3, zero_add, zero_add, add_zero, add_zero]
  rfl

end CosSim

end
-- ==== Proof.CosValue.lean ====
/-
  The second region's result array, from blocks to the whole: after the last grid point the result holds, at every
  index (b, s, q), the clamped cosine of rows s and q of matrix b.

  Each grid point (b, i) writes back the 512 x 2048 tile of rows 512 i … 512 i + 511 of matrix b; what it writes is the
  stored value of the body read at an index, whose four input blocks are read where the tile's rectangle says: the query
  rows and their norms move with the tile, the key rows and the row of all norms stay at the matrix.  For real entries
  the three-term product sum is the inner product, so the tile is the tile of the specification; the 32 tiles cover the array.
-/
import proofs.«162493_j23201413333423_2_alg».proof.Proof.CosBodyIdeal
import proofs.«162493_j23201413333423_2_alg».proof.Proof.CosPayload
import proofs.«162493_j23201413333423_2_alg».proof.Proof.DotSplit
import proofs.«162493_j23201413333423_2_alg».proof.Proof.Spec
import Idealize.ShloMosaic.Lib.Pipeline.Value

noncomputable section

open scoped BigOperators

namespace Cert.KernelIdeal.Frame

open Idealize.ShloMosaic Idealize.ShloMosaic.TcCoe Idealize.SL.Sem
open Idealize.ShloMosaic.Pipeline (Dat)
open Idealize.ShloMosaic.ValueIdx
open Cert.KernelIdeal Cert.KernelIdeal.Gen Cert.KernelIdeal.PayloadValue

variable (V : (c : Dev nD) → (b : Ref sig .tc) → Buf (Elt Ideal) ((c : Thread nD τ).loc b))

/-- The zero offsets of a whole-block rectangle. -/
theorem zero3 : (![0, 0, 0] : Fin 3 → Nat) = fun _ => 0 := funext fun a => by fin_cases a <;> rfl

/-! ## Where the five blocks lie at a grid point -/

/-- The index maps, decided over the 32 grid points: the query rows' block and their norms' move with the result's
    tile; the key rows' block and the norms' row follow the matrix only; the tile's matrix is below 8, its row block
    below 4, its column block 0. -/
theorem tile_index_facts : ∀ t : Fin cfg1.N,
    win1_0.index t (0 : Fin 3) = win1_4.index t (0 : Fin 3) ∧ win1_0.index t (1 : Fin 3) = win1_4.index t (1 : Fin 3)
    ∧ win1_0.index t (2 : Fin 3) = 0
    ∧ win1_1.index t (0 : Fin 3) = win1_4.index t (0 : Fin 3) ∧ win1_1.index t (1 : Fin 3) = 0 ∧ win1_1.index t (2 : Fin 3) = 0
    ∧ win1_2.index t (0 : Fin 3) = win1_4.index t (0 : Fin 3) ∧ win1_2.index t (1 : Fin 3) = win1_4.index t (1 : Fin 3)
    ∧ win1_2.index t (2 : Fin 3) = 0
    ∧ win1_3.index t (0 : Fin 3) = win1_4.index t (0 : Fin 3) ∧ win1_3.index t (1 : Fin 3) = 0 ∧ win1_3.index t (2 : Fin 3) = 0
    ∧ win1_4.index t (0 : Fin 3) ≤ 7 ∧ win1_4.index t (1 : Fin 3) ≤ 3 ∧ win1_4.index t (2 : Fin 3) = 0 :=
  (by decide +kernel : ∀ t : Fin grid1.N, _)

/-- Every tile (matrix b, row block i) is some point's. -/
theorem tile_index_onto : ∀ (q0 : Fin 8) (q1 : Fin 4), ∃ t : Fin cfg1.N, win1_4.index t = ![q0.val, q1.val, 0] :=
  (by decide +kernel : ∀ (q0 : Fin 8) (q1 : Fin 4), ∃ t : Fin grid1.N, win1_4.index t = ![q0.val, q1.val, 0])

/-! ## The input blocks read where the tile says -/

/-- The query rows' block at (0, p, k) is the input at (b, s, k), s the tile's row p. -/
theorem query_rows_apply (c : Dev nD) (t : Fin cfg1.N) (p k : Fin 512) (b : Fin 8) (s : Fin 2048)
    (hb : b.val = win1_4.index t (0 : Fin 3)) (hs : s.val = win1_4.index t (1 : Fin 3) * 512 + p.val) :
    (iblk1 V c 0 t : Vec Ideal S1x512x512 .f32) (ix3 (0 : Fin 1) p k)
      = (V c main_arg0 : S8x2048x512.Idx → EReal) (ix3 b s k) := by
  obtain ⟨e0, e1, e2, -⟩ := tile_index_facts t
  unfold iblk1
  rw [View.read_apply]
  show (V c main_arg0 : S8x2048x512.Idx → EReal) (((cfg1.win 0).blk t).view.emb (ix3 (0 : Fin 1) p k)) = _
  refine congrArg (V c main_arg0 : S8x2048x512.Idx → EReal) (funext fun a => Fin.ext ?_)
  match a with
  | ⟨0, _⟩ => show win1_0.index t (0 : Fin 3) * 1 + 1 * 0 = b.val; omega
  | ⟨1, _⟩ => show win1_0.index t (1 : Fin 3) * 512 + 1 * p.val = s.val; omega
  | ⟨2, _⟩ => show win1_0.index t (2 : Fin 3) * 512 + 1 * k.val = k.val; omega

/-- The key rows' block at (0, q, k) is the input at (b, q, k). -/
theorem key_rows_apply (c : Dev nD) (t : Fin cfg1.N) (q : Fin 2048) (k : Fin 512) (b : Fin 8)
    (hb : b.val = win1_4.index t (0 : Fin 3)) :
    (iblk1 V c 1 t : Vec Ideal S1x2048x512 .f32) (ix3 (0 : Fin 1) q k)
      = (V c main_arg0 : S8x2048x512.Idx → EReal) (ix3 b q k) := by
  obtain ⟨-, -, -, e0, e1, e2, -⟩ := tile_index_facts t
  unfold iblk1
  rw [View.read_apply]
  show (V c main_arg0 : S8x2048x512.Idx → EReal) (((cfg1.win 1).blk t).view.emb (ix3 (0 : Fin 1) q k)) = _
  refine congrArg (V c main_arg0 : S8x2048x512.Idx → EReal) (funext fun a => Fin.ext ?_)
  match a with
  | ⟨0, _⟩ => show win1_1.index t (0 : Fin 3) * 1 + 1 * 0 = b.val; omega
  | ⟨1, _⟩ => show win1_1.index t (1 : Fin 3) * 2048 + 1 * q.val = q.val; omega
  | ⟨2, _⟩ => show win1_1.index t (2 : Fin 3) * 512 + 1 * k.val = k.val; omega

/-- The query rows' norms at (0, p, 0) are the norm column at (b, s, 0). -/
theorem query_norms_apply (c : Dev nD) (t : Fin cfg1.N) (p : Fin 512) (b : Fin 8) (s : Fin 2048)
    (hb : b.val = win1_4.index t (0 : Fin 3)) (hs : s.val = win1_4.index t (1 : Fin 3) * 512 + p.val) :
    (iblk1 V c 2 t : Vec Ideal S1x512x1 .f32) (ix3 (0 : Fin 1) p (0 : Fin 1))
      = (V c main_v0 : S8x2048x1.Idx → EReal) (ix3 b s (0 : Fin 1)) := by
  obtain ⟨-, -, -, -, -, -, e0, e1, e2, -⟩ := tile_index_facts t
  unfold iblk1
  rw [View.read_apply]
  show (V c main_v0 : S8x2048x1.Idx → EReal) (((cfg1.win 2).blk t).view.emb (ix3 (0 : Fin 1) p (0 : Fin 1))) = _
  refine congrArg (V c main_v0 : S8x2048x1.Idx → EReal) (funext fun a => Fin.ext ?_)
  match a with
  | ⟨0, _⟩ => show win1_2.index t (0 : Fin 3) * 1 + 1 * 0 = b.val; omega
  | ⟨1, _⟩ => show win1_2.index t (1 : Fin 3) * 512 + 1 * p.val = s.val; omega
  | ⟨2, _⟩ => show win1_2.index t (2 : Fin 3) * 1 + 1 * 0 = 0; omega

/-- The row of all norms at (0, 0, q) is the norm row at (b, 0, q). -/
theorem key_norms_apply (c : Dev nD) (t : Fin cfg1.N) (q : Fin 2048) (b : Fin 8)
    (hb : b.val = win1_4.index t (0 : Fin 3)) :
    (iblk1 V c 3 t : Vec Ideal S1x1x2048 .f32) (ix3 (0 : Fin 1) (0 : Fin 1) q)
      = (V c main_v1 : S8x1x2048.Idx → EReal) (ix3 b (0 : Fin 1) q) := by
  obtain ⟨-, -, -, -, -, -, -, -, -, e0, e1, e2, -⟩ := tile_index_facts t
  unfold iblk1
  rw [View.read_apply]
  show (V c main_v1 : S8x1x2048.Idx → EReal) (((cfg1.win 3).blk t).view.emb (ix3 (0 : Fin 1) (0 : Fin 1) q)) = _
  refine congrArg (V c main_v1 : S8x1x2048.Idx → EReal) (funext fun a => Fin.ext ?_)
  match a with
  | ⟨0, _⟩ => show win1_3.index t (0 : Fin 3) * 1 + 1 * 0 = b.val; omega
  | ⟨1, _⟩ => show win1_3.index t (1 : Fin 3) * 1 + 1 * 0 = 0; omega
  | ⟨2, _⟩ => show win1_3.index t (2 : Fin 3) * 2048 + 1 * q.val = q.val; omega

/-! ## What a point writes back -/

/-- Point t writes back its tile of the specification. -/
theorem cos_flushed_eq (c : Dev nD) (x : CosSim.SX.Idx → EReal) (hx : ∀ i, ∃ r : ℝ, x i = (r : EReal))
    (harg : (V c main_arg0 : S8x2048x512.Idx → EReal) = x)
    (hcol : (V c main_v0 : S8x2048x1.Idx → EReal) = fun j => CosSim.norm x (j 0) (j 1))
    (hrow : (V c main_v1 : S8x1x2048.Idx → EReal) = fun j => CosSim.norm x (j 0) (j 2)) (t : Fin cfg1.N) :
    (dat1 (F := Ideal) V c).flushed 4 t = ((cfg1.win 4).blk t).view.read (Elt Ideal) (CosSim.sim x) := by
  show (cfg1.win 4).cut (grid1.coords t) ((dat1 V c).after 4 t) = _
  rw [after1_4]
  unfold out1_4
  rw [View.canon_unit_zero zero3]
  simp only [View.ld_unit_zero (S := S1x512x512) zero3, View.ld_unit_zero (S := S1x2048x512) zero3,
    View.ld_unit_zero (S := S1x512x1) zero3, View.ld_unit_zero (S := S1x1x2048) zero3]
  refine funext fun (j : S1x512x2048.Idx) => ?_
  obtain ⟨u, p, q, rfl⟩ : ∃ (u : Fin 1) (p : Fin 512) (q : Fin 2048), j = ix3 u p q := ⟨j 0, j 1, j 2, eq_ix3 j⟩
  obtain rfl : u = 0 := Subsingleton.elim _ _
  rw [View.read_apply]
  show k1_pay1 (F := Ideal) (iblk1 V c 0 t) (iblk1 V c 1 t) (iblk1 V c 2 t) (iblk1 V c 3 t) (ix3 (0 : Fin 1) p q)
    = CosSim.sim x (((cfg1.win 4).blk t).view.emb (ix3 (0 : Fin 1) p q))
  refine (k1_pay1_apply (iblk1 V c 0 t) (iblk1 V c 1 t) (iblk1 V c 2 t) (iblk1 V c 3 t) p q).trans ?_
  -- the tile's matrix b and the array row s of its row p
  obtain ⟨-, -, -, -, -, -, -, -, -, -, -, -, r0, r1, r2⟩ := tile_index_facts t
  have hp : p.val < 512 := p.isLt
  obtain ⟨b, hb⟩ : ∃ b : Fin 8, b.val = win1_4.index t (0 : Fin 3) := ⟨⟨win1_4.index t (0 : Fin 3), by omega⟩, rfl⟩
  obtain ⟨s, hs⟩ : ∃ s : Fin 2048, s.val = win1_4.index t (1 : Fin 3) * 512 + p.val :=
    ⟨⟨win1_4.index t (1 : Fin 3) * 512 + p.val, by omega⟩, rfl⟩
  have h_emb : ((cfg1.win 4).blk t).view.emb (ix3 (0 : Fin 1) p q) = (ix3 b s q : S8x2048x2048.Idx) :=
    funext fun a => Fin.ext (by
      match a with
      | ⟨0, _⟩ => show win1_4.index t (0 : Fin 3) * 1 + 1 * 0 = b.val; omega
      | ⟨1, _⟩ => show win1_4.index t (1 : Fin 3) * 512 + 1 * p.val = s.val; omega
      | ⟨2, _⟩ => show win1_4.index t (2 : Fin 3) * 2048 + 1 * q.val = q.val; omega)
  have hQ : ∀ k : Fin 512, (iblk1 V c 0 t : Vec Ideal S1x512x512 .f32) (ix3 (0 : Fin 1) p k) = x (ix3 b s k) :=
    fun k => (query_rows_apply V c t p k b s hb hs).trans (congrFun harg _)
  have hK : ∀ k : Fin 512, (iblk1 V c 1 t : Vec Ideal S1x2048x512 .f32) (ix3 (0 : Fin 1) q k) = x (ix3 b q k) :=
    fun k => (key_rows_apply V c t q k b hb).trans (congrFun harg _)
  have hC : (iblk1 V c 2 t : Vec Ideal S1x512x1 .f32) (ix3 (0 : Fin 1) p (0 : Fin 1)) = CosSim.norm x b s :=
    (query_norms_apply V c t p b s hb hs).trans (congrFun hcol _)
  have hR : (iblk1 V c 3 t : Vec Ideal S1x1x2048 .f32) (ix3 (0 : Fin 1) (0 : Fin 1) q) = CosSim.norm x b q :=
    (key_norms_apply V c t q b hb).trans (congrFun hrow _)
  refine Eq.trans ?_ (congrArg (CosSim.sim x) h_emb).symm
  show _ = max (Ideal.div (CosSim.dot x b s q) (CosSim.norm x b s * CosSim.norm x b q)) CosSim.eps
  refine congrArg₂ (fun a b : EReal => max a b) (congrArg₂ (fun a b : EReal => Ideal.div a b) ?_ ?_) rfl
  · refine Eq.trans ?_ (CosSim.split_dot_eq x hx b s q)
    refine congrArg₂ (fun a b : EReal => a + b) (congrArg₂ (fun a b : EReal => a + b) ?_ ?_) ?_
    · exact congrArg (fun a : EReal => 0 + a) (Finset.sum_congr rfl fun k _ =>
        congrArg₂ (fun a b : EReal => a * b) (hQ k) (hK k))
    · exact congrArg (fun a : EReal => 0 + a) (Finset.sum_congr rfl fun k _ =>
        congrArg₂ (fun a b : EReal => a * b) (hQ k) (congrArg₂ (fun a b : EReal => a - b) (hK k) (hK k)))
    · exact congrArg (fun a : EReal => 0 + a) (Finset.sum_congr rfl fun k _ =>
        congrArg₂ (fun a b : EReal => a * b) (congrArg₂ (fun a b : EReal => a - b) (hQ k) (hQ k)) (hK k))
  · exact congrArg₂ (fun a b : EReal => a * b) hC hR

/-! ## The tiles cover the array -/

/-- An index of the result is in point t's tile iff each coordinate is in the tile's range on its axis. -/
theorem tile_mem (t : Fin cfg1.N) (i : S8x2048x2048.Idx) :
    i ∈ ((cfg1.win 4).blk t).view.set ↔ ∀ a : Fin 3, win1_4.index t a * S1x512x2048.size a ≤ (i a).val
      ∧ (i a).val < win1_4.index t a * S1x512x2048.size a + S1x512x2048.size a := by
  show i ∈ ((View.whole main_v2).slice (win1_4.rect t)).set ↔ _
  rw [View.set_slice_whole, Rect.mem_set_unit]
  exact Iff.rfl

/-- Index (b, s, q) is in the tile of the point with matrix b and row block s / 512. -/
theorem tile_cover (i : S8x2048x2048.Idx) :
    ∃ t : Fin cfg1.N, (cfg1.win 4).flush t = true ∧ i ∈ ((cfg1.win 4).blk t).view.set := by
  have hi0 : (i 0).val < 8 := (i 0).isLt
  have hi1 : (i 1).val < 2048 := (i 1).isLt
  have hi2 : (i 2).val < 2048 := (i 2).isLt
  obtain ⟨t, ht⟩ := tile_index_onto ⟨(i 0).val, hi0⟩ ⟨(i 1).val / 512, by omega⟩
  have q0 : win1_4.index t (0 : Fin 3) = (i 0).val := congrFun ht 0
  have q1 : win1_4.index t (1 : Fin 3) = (i 1).val / 512 := congrFun ht 1
  have q2 : win1_4.index t (2 : Fin 3) = 0 := congrFun ht 2
  refine ⟨t, flush1_4 t, ?_⟩
  rw [tile_mem]
  intro a
  match a with
  | ⟨0, _⟩ =>
    show win1_4.index t (0 : Fin 3) * 1 ≤ (i 0).val ∧ (i 0).val < win1_4.index t (0 : Fin 3) * 1 + 1
    omega
  | ⟨1, _⟩ =>
    show win1_4.index t (1 : Fin 3) * 512 ≤ (i 1).val ∧ (i 1).val < win1_4.index t (1 : Fin 3) * 512 + 512
    omega
  | ⟨2, _⟩ =>
    show win1_4.index t (2 : Fin 3) * 2048 ≤ (i 2).val ∧ (i 2).val < win1_4.index t (2 : Fin 3) * 2048 + 2048
    omega

/-! ## The result array after the last point -/

/-- After the region the result array is the specification's, when the input's entries are real, the norm column and
    the norm row hold the rows' lengths, and the input array is x. -/
theorem cos_final (c : Dev nD) (x : CosSim.SX.Idx → EReal) (hx : ∀ i, ∃ r : ℝ, x i = (r : EReal))
    (harg : (V c main_arg0 : S8x2048x512.Idx → EReal) = x)
    (hcol : (V c main_v0 : S8x2048x1.Idx → EReal) = fun j => CosSim.norm x (j 0) (j 1))
    (hrow : (V c main_v1 : S8x1x2048.Idx → EReal) = fun j => CosSim.norm x (j 0) (j 2)) :
    (dat1 (F := Ideal) V c).arrAt 4 cfg1.N = CosSim.sim x :=
  (dat1 (F := Ideal) V c).arrAt_eq_of_cover 4 (CosSim.sim x)
    (fun t _ => cos_flushed_eq V c x hx harg hcol hrow t) tile_cover

end Cert.KernelIdeal.Frame

end
-- ==== Proof.lean ====
/-
  The clamped cosine similarity of every pair of rows, per batch: a kernel in two pipelined regions against jnp.

  The kernel first computes, one matrix per grid point, the Euclidean norm of every row (the square root of the lane
  sum of squares), kept as a column; the host turns the column into a row; a second region then computes, tile by tile
  (512 query rows against all 2048 key rows), the inner products divided by the product of the two rows' norms and
  clamped from below.  The inner product is written as three matrix products of a "high" and a "low" part of each
  operand, hi·hi + hi·lo + lo·hi with hi the operand rounded to a narrower format and lo the rounded remainder.  Over
  the extended reals a change of format is the identity, so hi is the operand itself and lo is x − x, which is zero
  for every real x: the two extra products are sums of zeros and the three-term sum is the plain inner product.  This
  is where the inputs' finiteness is used (∞ − ∞ is not zero).  The reference computes the same norms by a host sum and
  square root, the same inner products by one batched contraction, the same quotient and the same maximum against the
  same float word.  Both sides are therefore the one function `CosSim.sim` of the input array (Proof/Spec.lean).

  The frames: each program's run is composed from its two regions and the host line between them (Proof/RunBits.lean at
  the word-level instance, Proof/RunIdeal.lean at the extended reals; the second region reads the one input array
  through two windows, each holding half of its share), and the reference's run is the generated one read back
  (Proof/RefSim.lean).  The two rewrites the idealization made — a rounding to the narrower format followed by the
  widening back, replaced by the operand — are the ledger's two entries.
-/
import proofs.«162493_j23201413333423_2_alg».proof.Defs
import proofs.«162493_j23201413333423_2_alg».proof.Proof.Gen.Kernel
import proofs.«162493_j23201413333423_2_alg».proof.Proof.Gen.Kernel.Skeleton
import proofs.«162493_j23201413333423_2_alg».proof.Proof.Gen.Kernel.Launch
import proofs.«162493_j23201413333423_2_alg».proof.Proof.Gen.Kernel.Regions
import proofs.«162493_j23201413333423_2_alg».proof.Proof.Gen.Kernel.Points
import proofs.«162493_j23201413333423_2_alg».proof.Proof.Gen.KernelIdeal
import proofs.«162493_j23201413333423_2_alg».proof.Proof.Gen.KernelIdeal.Skeleton
import proofs.«162493_j23201413333423_2_alg».proof.Proof.Gen.KernelIdeal.Launch
import proofs.«162493_j23201413333423_2_alg».proof.Proof.Gen.KernelIdeal.Regions
import proofs.«162493_j23201413333423_2_alg».proof.Proof.Gen.KernelIdeal.Points
import proofs.«162493_j23201413333423_2_alg».proof.Proof.Gen.ReferenceIdeal
import proofs.«162493_j23201413333423_2_alg».proof.Proof.Gen.ReferenceIdeal.Run
import proofs.«162493_j23201413333423_2_alg».proof.Proof.Gen.ReferenceIdeal.Read
import proofs.«162493_j23201413333423_2_alg».proof.Proof.Gen.Pre_finite_inputs
import proofs.«162493_j23201413333423_2_alg».proof.Proof.RunBits
import proofs.«162493_j23201413333423_2_alg».proof.Proof.RunIdeal
import proofs.«162493_j23201413333423_2_alg».proof.Proof.RefSim
import proofs.«162493_j23201413333423_2_alg».proof.Proof.Finite
import proofs.«162493_j23201413333423_2_alg».proof.Proof.NormValue
import proofs.«162493_j23201413333423_2_alg».proof.Proof.CosValue
import Idealize.ShloMosaic.PureOps.IdealRules
import Idealize.ShloMosaic.Adequacy
import Idealize.ShloMosaic.Init

noncomputable section

namespace Cert.Proof

open Idealize.ShloMosaic Idealize.ShloMosaic.TcCoe Idealize.SL.Sem

/-- The word-level kernel runs to the end and leaves the input array as launched. -/
theorem frame_k : Cert.frame_Kernel (hKernel := Cert.Kernel.Gen.facts) (hPre_finite_inputs := Cert.Pre_finite_inputs.Gen.facts) :=
  fun m ρ _ => Cert.Kernel.Frame.frame (F := Bits) m ρ

/-- So does the idealized kernel. -/
theorem frame_ki : Cert.frame_KernelIdeal (hKernelIdeal := Cert.KernelIdeal.Gen.facts) (hPre_finite_inputs := Cert.Pre_finite_inputs.Gen.facts) :=
  fun m ρ _ => Cert.KernelIdeal.Frame.frame (F := Ideal) m ρ

/-- The reference's run, its result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.RefValue.ref_run m ρ)

/-- The ledger's two entries: rounding a value to the narrower format and widening it back is, at the extended
    reals, the value itself — once for the tile of query rows and once for the matrix of key rows. -/
theorem preserves : Cert.preserves_Kernel_KernelIdeal :=
  ⟨IdealRules.truncf_extf.statement _ .f32 .bf16, IdealRules.truncf_extf.statement _ .f32 .bf16⟩

/-- Over the extended reals, on finite inputs, the kernel's result array and the reference's are both the clamped
    cosine similarities `CosSim.sim` of the input array: the kernel's by the two regions' values (the norms the second
    region finds are the rows' norms; each tile it writes back is that tile of `sim`, the low parts vanishing), the
    reference's by its operations read index by index. -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' hpre hagree
  have hfin : ∀ c : Dev Cert.KernelIdeal.nD, ∀ i, ∃ r : ℝ, m ((c.tc : Thread Cert.KernelIdeal.nD Cert.KernelIdeal.τ).loc Cert.KernelIdeal.main_arg0) i = (r : EReal) :=
    fun c => CosSim.finite_of_pre _ (hpre c)
  refine ⟨fun c => CosSim.sim (m ((c.tc : Thread Cert.KernelIdeal.nD Cert.KernelIdeal.τ).loc Cert.KernelIdeal.main_arg0)), ?_, ?_⟩
  · refine (θ_run Cert.KernelIdeal.defs _ _).mono (fun r h c => ⟨(h c).1.trans ?_, (h c).2⟩) (Cert.KernelIdeal.Frame.run_result (F := Ideal) m ρ)
    exact Cert.KernelIdeal.Frame.cos_final (Cert.KernelIdeal.Frame.V2 m ρ) c _ (hfin c) (Cert.KernelIdeal.Frame.W2_main_arg0 m ρ c)
      (Cert.KernelIdeal.Frame.norm_col m ρ c) (Cert.KernelIdeal.Frame.norm_row m ρ c)
  · refine (θ_run Cert.ReferenceIdeal.defs _ _).mono (fun r h c => ⟨?_, (h c).2⟩) (Cert.ReferenceIdeal.RefValue.ref_run m' ρ')
    rw [(h c).1, hagree c]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
